-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S2x32 : Shape := ⟨2, ![2, 32]⟩
abbrev S32 : Shape := ⟨1, ![32]⟩
abbrev S32x3 : Shape := ⟨2, ![32, 3]⟩
abbrev S3 : Shape := ⟨1, ![3]⟩
abbrev S384x3 : Shape := ⟨2, ![384, 3]⟩
abbrev S384x128 : Shape := ⟨2, ![384, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S2x32 : S_.BroadcastsInDim S2x32 (![] : Fin 0 → Fin S2x32.rank)
  reducesTo_S2x32_S_d0_1 : S2x32.ReducesTo [0, 1] S_
  bcast_S_S32 : S_.BroadcastsInDim S32 (![] : Fin 0 → Fin S32.rank)
  reducesTo_S32_S_d0 : S32.ReducesTo [0] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_
  bcast_S_S384x3 : S_.BroadcastsInDim S384x3 (![] : Fin 0 → Fin S384x3.rank)
  reducesTo_S384x3_S_d0_1 : S384x3.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S384x3 .f32) (main_arg10 : FVec F S3 .f32) (main_arg11 : FVec F S384x128 .f32) (main_arg12 : FVec F S128 .f32) (main_v33 : IVec S_ 1) : IVec S_ 1 :=
  let main_v34 : FVec F S384x3 .f32 := Host.absf main_arg9
  let main_cst_12 : FVec F S_ .f32 := constant S_ .f32 0x7F800000#32
  let main_v35 : FVec F S384x3 .f32 := broadcastInDim S384x3 ![] bcast_S_S384x3 main_cst_12
  let main_v36 : IVec S384x3 1 := cmpf .olt main_v34 main_v35
  let main_c_13 : IVec S_ 1 := constantI S_ 1 1#1
  let main_v37 : IVec S_ 1 := (fun x v => Host.reduce IntOp.andi x v reducesTo_S384x3_S_d0_1 h_S_) main_v36 main_c_13
  let main_v38 : IVec S_ 1 := andi main_v33 main_v37
  let main_v39 : FVec F S3 .f32 := Host.absf main_arg10
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  let main_v44 : FVec F S384x128 .f32 := Host.absf main_arg11
  let main_cst_16 : FVec F S_ .f32 := constant S_ .f32 0x7F800000#32
  let main_v45 : FVec F S384x128 .f32 := broadcastInDim S384x128 ![] bcast_S_S384x128 main_cst_16
  let main_v46 : IVec S384x128 1 := cmpf .olt main_v44 main_v45
  let main_c_17 : IVec S_ 1 := constantI S_ 1 1#1
  let main_v47 : IVec S_ 1 := (fun x v => Host.reduce IntOp.andi x v reducesTo_S384x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S32 .f32) (main_arg7 : FVec F S32x3 .f32) (main_arg8 : FVec F S3 .f32) (main_arg9 : FVec F S384x3 .f32) (main_arg10 : FVec F S3 .f32) (main_arg11 : FVec F S384x128 .f32) (main_arg12 : FVec F S128 .f32) (main_v13 : IVec S_ 1) (main_v16 : IVec S2x32 1) : IVec S_ 1 :=
  let main_c_5 : IVec S_ 1 := constantI S_ 1 1#1
  let main_v17 : IVec S_ 1 := (fun x v => Host.reduce IntOp.andi x v reducesTo_S2x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x3 .f32 := Host.absf main_arg7
  let main_cst_8 : FVec F S_ .f32 := constant S_ .f32 0x7F800000#32
  let main_v25 : FVec F S32x3 .f32 := broadcastInDim S32x3 ![] bcast_S_S32x3 main_cst_8
  let main_v26 : IVec S32x3 1 := cmpf .olt main_v24 main_v25
  let main_c_9 : IVec S_ 1 := constantI S_ 1 1#1
  let main_v27 : IVec S_ 1 := (fun x v => Host.reduce IntOp.andi x v reducesTo_S32x3_S_d0_1 h_S_) main_v26 main_c_9
  let main_v28 : IVec S_ 1 := andi main_v23 main_v27
  let main_v29 : FVec F S3 .f32 := Host.absf main_arg8
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S3x128x128 .f32) (main_arg4 : FVec F S3x128 .f32) (main_arg5 : FVec F S2x32 .f32) (main_arg6 : FVec F S32 .f32) (main_arg7 : FVec F S32x3 .f32) (main_arg8 : FVec F S3 .f32) (main_arg9 : FVec F S384x3 .f32) (main_arg10 : FVec F S3 .f32) (main_arg11 : FVec F S384x128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S2x32 .f32 := Host.absf main_arg5
  let main_cst_4 : FVec F S_ .f32 := constant S_ .f32 0x7F800000#32
  let main_v15 : FVec F S2x32 .f32 := broadcastInDim S2x32 ![] bcast_S_S2x32 main_cst_4
  let main_v16 : IVec S2x32 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S2x32 : Shape := ⟨2, ![2, 32]⟩
abbrev S32 : Shape := ⟨1, ![32]⟩
abbrev S32x3 : Shape := ⟨2, ![32, 3]⟩
abbrev S3 : Shape := ⟨1, ![3]⟩
abbrev S384x3 : Shape := ⟨2, ![384, 3]⟩
abbrev S384x128 : Shape := ⟨2, ![384, 128]⟩
abbrev S128 : Shape := ⟨1, ![128]⟩
abbrev S_ : Shape := ⟨0, ![]⟩
abbrev S1 : Shape := ⟨1, ![1]⟩
abbrev S2 : Shape := ⟨1, ![2]⟩
abbrev S1x2 : Shape := ⟨2, ![1, 2]⟩
abbrev S1x32 : Shape := ⟨2, ![1, 32]⟩
abbrev S1x3 : Shape := ⟨2, ![1, 3]⟩
abbrev S1x800000 : Shape := ⟨2, ![1, 800000]⟩
abbrev S800000 : Shape := ⟨1, ![800000]⟩
abbrev S800000x1 : Shape := ⟨2, ![800000, 1]⟩
abbrev S50000x1 : Shape := ⟨2, ![50000, 1]⟩
abbrev S800000x128 : Shape := ⟨2, ![800000, 128]⟩
abbrev S2000x128 : Shape := ⟨2, ![2000, 128]⟩
abbrev S2000x1 : Shape := ⟨2, ![2000, 1]⟩
abbrev S1x128x128 : Shape := ⟨3, ![1, 128, 128]⟩
abbrev S128x128 : Shape := ⟨2, ![128, 128]⟩
abbrev S1x128 : Shape := ⟨2, ![1, 128]⟩
abbrev S1x1 : Shape := ⟨2, ![1, 1]⟩
abbrev S2000x384 : Shape := ⟨2, ![2000, 384]⟩
abbrev S2000x3 : Shape := ⟨2, ![2000, 3]⟩
abbrev S2000 : Shape := ⟨1, ![2000]⟩

abbrev nBuf : Space → Nat
  | .hbm => 85
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S3x128x128, .f32⟩
  | .hbm, ⟨4, _⟩ => ⟨S3x128, .f32⟩
  | .hbm, ⟨5, _⟩ => ⟨S2x32, .f32⟩
  | .hbm, ⟨6, _⟩ => ⟨S32, .f32⟩
  | .hbm, ⟨7, _⟩ => ⟨S32x3, .f32⟩
  | .hbm, ⟨8, _⟩ => ⟨S3, .f32⟩
  | .hbm, ⟨9, _⟩ => ⟨S384x3, .f32⟩
  | .hbm, ⟨10, _⟩ => ⟨S3, .f32⟩
  | .hbm, ⟨11, _⟩ => ⟨S384x128, .f32⟩
  | .hbm, ⟨12, _⟩ => ⟨S128, .f32⟩
  | .hbm, ⟨13, _⟩ => ⟨S_, .i32⟩
  | .hbm, ⟨14, _⟩ => ⟨S_, .i32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S1, .f32⟩
  | .hbm, ⟨21, _⟩ => ⟨S2, .f32⟩
  | .hbm, ⟨22, _⟩ => ⟨S1x2, .f32⟩
  | .hbm, ⟨23, _⟩ => ⟨S1x32, .f32⟩
  | .hbm, ⟨24, _⟩ => ⟨S1x32, .f32⟩
  | .hbm, ⟨25, _⟩ => ⟨S1x32, .f32⟩
  | .hbm, ⟨26, _⟩ => ⟨S_, .f32⟩
  | .hbm, ⟨27, _⟩ => ⟨S1x32, .f32⟩
  | .hbm, ⟨28, _⟩ => ⟨S1x32, .f32⟩
  | .hbm, ⟨29, _⟩ => ⟨S1x3, .f32⟩
  | .hbm, ⟨30, _⟩ => ⟨S1x3, .f32⟩
  | .hbm, ⟨31, _⟩ => ⟨S1x3, .f32⟩
  | .hbm, ⟨32, _⟩ => ⟨S1x3, .f32⟩
  | .hbm, ⟨33, _⟩ => ⟨S1x3, .f32⟩
  | .hbm, ⟨34, _⟩ => ⟨S_, .f32⟩
  | .hbm, ⟨35, _⟩ => ⟨S1x3, .f32⟩
  | .hbm, ⟨36, _⟩ => ⟨S1x3, .f32⟩
  | .hbm, ⟨37, _⟩ => ⟨S_, .f32⟩
  | .hbm, ⟨38, _⟩ => ⟨S1x3, .f32⟩
  | .hbm, ⟨39, _⟩ => ⟨S1x3, .f32⟩
  | .hbm, ⟨40, _⟩ => ⟨S1x800000, .i32⟩
  | .hbm, ⟨41, _⟩ => ⟨S800000, .i32⟩
  | .hbm, ⟨42, _⟩ => ⟨S1x800000, .i32⟩
  | .hbm, ⟨43, _⟩ => ⟨S800000, .i32⟩
  | .hbm, ⟨44, _⟩ => ⟨S_, .f32⟩
  | .hbm, ⟨45, _⟩ => ⟨S800000x1, .f32⟩
  | .hbm, ⟨46, _⟩ => ⟨S_, .f32⟩
  | .hbm, ⟨47, _⟩ => ⟨S50000x1, .f32⟩
  | .hbm, ⟨48, _⟩ => ⟨S800000x1, .i32⟩
  | .hbm, ⟨49, _⟩ => ⟨S50000x1, .f32⟩
  | .hbm, ⟨50, _⟩ => ⟨S_, .f32⟩
  | .hbm, ⟨51, _⟩ => ⟨S50000x1, .f32⟩
  | .hbm, ⟨52, _⟩ => ⟨S50000x1, .f32⟩
  | .hbm, ⟨53, _⟩ => ⟨S_, .f32⟩
  | .hbm, ⟨54, _⟩ => ⟨S50000x1, .f32⟩
  | .hbm, ⟨55, _⟩ => ⟨S50000x1, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S800000x128, .f32⟩
  | .hbm, ⟨80, _⟩ => ⟨S_, .f32⟩
  | .hbm, ⟨81, _⟩ => ⟨S50000x128, .f32⟩
  | .hbm, ⟨82, _⟩ => ⟨S800000x1, .i32⟩
  | .hbm, ⟨83, _⟩ => ⟨S50000x128, .f32⟩
  | .hbm, ⟨84, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x1, .f32⟩
  | .local _ .vmem, ⟨7, _⟩ => ⟨S2000x1, .f32⟩
  | .local _ .vmem, ⟨8, _⟩ => ⟨S3x128x128, .f32⟩
  | .local _ .vmem, ⟨9, _⟩ => ⟨S3x128, .f32⟩
  | .local _ .vmem, ⟨10, _⟩ => ⟨S1x3, .f32⟩
  | .local _ .vmem, ⟨11, _⟩ => ⟨S384x3, .f32⟩
  | .local _ .vmem, ⟨12, _⟩ => ⟨S3, .f32⟩
  | .local _ .vmem, ⟨13, _⟩ => ⟨S384x128, .f32⟩
  | .local _ .vmem, ⟨14, _⟩ => ⟨S128, .f32⟩
  | .local _ .vmem, ⟨15, _⟩ => ⟨S2000x128, .f32⟩
  | .local _ .vmem, ⟨16, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call0_cst : Ref sig .tc := ⟨.hbm, 26, rfl⟩
abbrev main_call0_v0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_1 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_v29 : Ref sig .tc := ⟨.hbm, 52, rfl⟩
abbrev main_cst_6 : Ref sig .tc := ⟨.hbm, 53, rfl⟩
abbrev main_v30 : Ref sig .tc := ⟨.hbm, 54, rfl⟩
abbrev main_v31 : Ref sig .tc := ⟨.hbm, 55, rfl⟩
abbrev main_c_7 : Ref sig .tc := ⟨.hbm, 56, rfl⟩
abbrev main_v32 : Ref sig .tc := ⟨.hbm, 57, rfl⟩
abbrev main_v33 : Ref sig .tc := ⟨.hbm, 58, rfl⟩
abbrev main_c_8 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_10 : Ref sig .tc := ⟨.hbm, 71, rfl⟩
abbrev main_v44 : Ref sig .tc := ⟨.hbm, 72, rfl⟩
abbrev main_v45 : Ref sig .tc := ⟨.hbm, 73, rfl⟩
abbrev main_c_11 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_12 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  reducesTo_S50000_S_d0 : S50000.ReducesTo [0] S_
  h_S_ : 0 < S_.numel
  bcast_S_S1 : S_.BroadcastsInDim S1 (![] : Fin 0 → Fin S1.rank)
  concatenates_S1_S1_S2_d0 : Shape.Concatenates [S1, S1] S2 0
  bcast_S2_S1x2_1 : S2.BroadcastsInDim S1x2 (![1] : Fin 1 → Fin S1x2.rank)
  bcast_S32_S1x32_1 : S32.BroadcastsInDim S1x32 (![1] : Fin 1 → Fin S1x32.rank)
  bcast_S_S1x32 : S_.BroadcastsInDim S1x32 (![] : Fin 0 → Fin S1x32.rank)
  bcast_S3_S1x3_1 : S3.BroadcastsInDim S1x3 (![1] : Fin 1 → Fin S1x3.rank)
  bcast_S_S1x3 : S_.BroadcastsInDim S1x3 (![] : Fin 0 → Fin S1x3.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x3_S1x3_0_0 : ∀ a, (![0, 0] : Fin 2 → Nat) a + S1x3.size a ≤ S1x3.size a
  h_S1x3 : 0 < S1x3.numel
  shapeCasts_S1x3_S1x3 : S1x3.ShapeCasts S1x3
  bitsLt_bf16_f32 : FTy.bits .bf16 < FTy.bits .f32
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128_S1x128_0_0 : ∀ a, (![0, 0] : Fin 2 → Nat) a + S1x128.size a ≤ S3x128.size a
  h_S1x128 : 0 < S1x128.numel
  shapeCasts_S1x128_S128 : S1x128.ShapeCasts S128
  shapeCasts_S128_S1x128 : S128.ShapeCasts S1x128
  broadcasts_S1x128_S2000x128 : S1x128.Broadcasts S2000x128
  slices_S1x3_o0_0_S1x1 : S1x3.Slices ![0, 0] S1x1
  inpos_S1x1_p0_0 : ∀ a, (![0, 0] : Fin 2 → Nat) a < S1x1.size a
  inb_S3x128x128_S1x128x128_1_0_0 : ∀ a, (![1, 0, 0] : Fin 3 → Nat) a + S1x128x128.size a ≤ S3x128x128.size a
  inb_S3x128_S1x128_1_0 : ∀ a, (![1, 0] : Fin 2 → Nat) a + S1x128.size a ≤ S3x128.size a
  slices_S1x3_o0_1_S1x1 : S1x3.Slices ![0, 1] S1x1
  inb_S3x128x128_S1x128x128_2_0_0 : ∀ a, (![2, 0, 0] : Fin 3 → Nat) a + S1x128x128.size a ≤ S3x128x128.size a
  inb_S3x128_S1x128_2_0 : ∀ a, (![2, 0] : Fin 2 → Nat) a + S1x128.size a ≤ S3x128.size a
  slices_S1x3_o0_2_S1x1 : S1x3.Slices ![0, 2] S1x1
  concatenates_S2000x128_S2000x128_S2000x128_S2000x384_d1 : Shape.Concatenates [S2000x128, S2000x128, S2000x128] S2000x384 1
  inb_S384x3_S384x3_0_0 : ∀ a, (![0, 0] : Fin 2 → Nat) a + S384x3.size a ≤ S384x3.size a
  h_S384x3 : 0 < S384x3.numel
  inb_S3_S3_0 : ∀ a, (![0] : Fin 1 → Nat) a + S3.size a ≤ S3.size a
  h_S3 : 0 < S3.numel
  shapeCasts_S3_S1x3 : S3.ShapeCasts S1x3
  broadcasts_S1x3_S2000x3 : S1x3.Broadcasts S2000x3
  reduces_S2000x3_S2000 : S2000x3.Reduces [1] S2000
  shapeCasts_S2000_S2000x1 : S2000.ShapeCasts S2000x1
  broadcasts_S2000x1_S2000x3 : S2000x1.Broadcasts S2000x3
  slices_S2000x3_o0_0_S2000x1 : S2000x3.Slices ![0, 0] S2000x1
  slices_S2000x3_o0_1_S2000x1 : S2000x3.Slices ![0, 1] S2000x1
  slices_S2000x3_o0_2_S2000x1 : S2000x3.Slices ![0, 2] S2000x1
  inb_S384x128_S384x128_0_0 : ∀ a, (![0, 0] : Fin 2 → Nat) a + S384x128.size a ≤ S384x128.size a
  h_S384x128 : 0 < S384x128.numel
  inb_S128_S128_0 : ∀ a, (![0] : Fin 1 → Nat) a + S128.size a ≤ S128.size a
  h_S128 : 0 < S128.numel
  dot_S1x2_S2x32_S1x32_1_0_0_1_n_n_wf : DotDims.WF S1x2 S2x32 S1x32 [1] [0] [0] [1] [] []
  dot_S1x32_S32x3_S1x3_1_0_0_1_n_n_wf : DotDims.WF S1x32 S32x3 S1x3 [1] [0] [0] [1] [] []
  scatter_S50000x1_S800000x1_S800000x1_1_0_0_1_wf : ScatterDims.WF S50000x1 S800000x1 S800000x1 [1] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x384_S384x3_S2000x3_1_0_0_1_n_n_wf : DotDims.WF S2000x384 S384x3 S2000x3 [1] [0] [0] [1] [] []
  dot_S2000x384_S384x128_S2000x128_1_0_0_1_n_n_wf : DotDims.WF S2000x384 S384x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S50000x1.size a
  hwx0_3 : ∀ i : grid0.Coords, EltTy.bits .f32 = 32 ∨ (Rect.block (s := S50000x1) S2000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x128x128.size a ≤ S3x128x128.size a
  hwx0_4 : ∀ i : grid0.Coords, EltTy.bits .f32 = 32 ∨ (Rect.block (s := S3x128x128) S3x128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x128.size a ≤ S3x128.size a
  hwx0_5 : ∀ i : grid0.Coords, EltTy.bits .f32 = 32 ∨ (Rect.block (s := S3x128) S3x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3.size a ≤ S1x3.size a
  hwx0_6 : ∀ i : grid0.Coords, EltTy.bits .f32 = 32 ∨ (Rect.block (s := S1x3) S1x3.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S384x3.size a ≤ S384x3.size a
  hwx0_7 : ∀ i : grid0.Coords, EltTy.bits .f32 = 32 ∨ (Rect.block (s := S384x3) S384x3.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3.size a ≤ S3.size a
  hwx0_8 : ∀ i : grid0.Coords, EltTy.bits .f32 = 32 ∨ (Rect.block (s := S3) S3.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S384x128.size a ≤ S384x128.size a
  hwx0_9 : ∀ i : grid0.Coords, EltTy.bits .f32 = 32 ∨ (Rect.block (s := S384x128) S384x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S50000x128.size a
  hwx0_11 : ∀ i : grid0.Coords, EltTy.bits .f32 = 32 ∨ (Rect.block (s := S50000x128) S2000x128.size (cc0_transform_11 i) (hinb0_11 i)).WholeWords (EltTy.packing .f32)

variable [Facts₀]

def dot_S1x2_S2x32_S1x32_1_0_0_1_n_n : DotDims S1x2 S2x32 S1x32 where
  lhsContracting := [1]
  rhsContracting := [0]
  lhsNonContracting := [0]
  rhsNonContracting := [1]
  lhsBatch := []
  rhsBatch := []
  wf := dot_S1x2_S2x32_S1x32_1_0_0_1_n_n_wf
def dot_S1x32_S32x3_S1x3_1_0_0_1_n_n : DotDims S1x32 S32x3 S1x3 where
  lhsContracting := [1]
  rhsContracting := [0]
  lhsNonContracting := [0]
  rhsNonContracting := [1]
  lhsBatch := []
  rhsBatch := []
  wf := dot_S1x32_S32x3_S1x3_1_0_0_1_n_n_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x384_S384x3_S2000x3_1_0_0_1_n_n : DotDims S2000x384 S384x3 S2000x3 where
  lhsContracting := [1]
  rhsContracting := [0]
  lhsNonContracting := [0]
  rhsNonContracting := [1]
  lhsBatch := []
  rhsBatch := []
  wf := dot_S2000x384_S384x3_S2000x3_1_0_0_1_n_n_wf
def dot_S2000x384_S384x128_S2000x128_1_0_0_1_n_n : DotDims S2000x384 S384x128 S2000x128 where
  lhsContracting := [1]
  rhsContracting := [0]
  lhsNonContracting := [0]
  rhsNonContracting := [1]
  lhsBatch := []
  rhsBatch := []
  wf := dot_S2000x384_S384x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v53) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S3x128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S3x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S384x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S3.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S384x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v54) S2000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S2x32 : Shape := ⟨2, ![2, 32]⟩
abbrev S32 : Shape := ⟨1, ![32]⟩
abbrev S32x3 : Shape := ⟨2, ![32, 3]⟩
abbrev S3 : Shape := ⟨1, ![3]⟩
abbrev S384x3 : Shape := ⟨2, ![384, 3]⟩
abbrev S384x128 : Shape := ⟨2, ![384, 128]⟩
abbrev S128 : Shape := ⟨1, ![128]⟩
abbrev S_ : Shape := ⟨0, ![]⟩
abbrev S1 : Shape := ⟨1, ![1]⟩
abbrev S2 : Shape := ⟨1, ![2]⟩
abbrev S1x2 : Shape := ⟨2, ![1, 2]⟩
abbrev S1x32 : Shape := ⟨2, ![1, 32]⟩
abbrev S1x3 : Shape := ⟨2, ![1, 3]⟩
abbrev S1x800000 : Shape := ⟨2, ![1, 800000]⟩
abbrev S800000 : Shape := ⟨1, ![800000]⟩
abbrev S1x128x128 : Shape := ⟨3, ![1, 128, 128]⟩
abbrev S128x128 : Shape := ⟨2, ![128, 128]⟩
abbrev S1x128 : Shape := ⟨2, ![1, 128]⟩
abbrev S1x1 : Shape := ⟨2, ![1, 1]⟩
abbrev S800000x1 : Shape := ⟨2, ![800000, 1]⟩
abbrev S800000x128 : Shape := ⟨2, ![800000, 128]⟩
abbrev S50000x1 : Shape := ⟨2, ![50000, 1]⟩
abbrev S50000x384 : Shape := ⟨2, ![50000, 384]⟩
abbrev S50000x3 : Shape := ⟨2, ![50000, 3]⟩

abbrev nBuf : Space → Nat
  | .hbm => 161
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S3x128x128, .f32⟩
  | 4 => ⟨S3x128, .f32⟩
  | 5 => ⟨S2x32, .f32⟩
  | 6 => ⟨S32, .f32⟩
  | 7 => ⟨S32x3, .f32⟩
  | 8 => ⟨S3, .f32⟩
  | 9 => ⟨S384x3, .f32⟩
  | 10 => ⟨S3, .f32⟩
  | 11 => ⟨S384x128, .f32⟩
  | 12 => ⟨S128, .f32⟩
  | 13 => ⟨S_, .i32⟩
  | 14 => ⟨S_, .i32⟩
  | 15 => ⟨S_, .f32⟩
  | 16 => ⟨S_, .f32⟩
  | 17 => ⟨S_, .f32⟩
  | 18 => ⟨S_, .f32⟩
  | 19 => ⟨S1, .f32⟩
  | 20 => ⟨S1, .f32⟩
  | 21 => ⟨S2, .f32⟩
  | 22 => ⟨S1x2, .f32⟩
  | 23 => ⟨S1x32, .f32⟩
  | 24 => ⟨S1x32, .f32⟩
  | 25 => ⟨S1x32, .f32⟩
  | 26 => ⟨S_, .f32⟩
  | 27 => ⟨S1x32, .f32⟩
  | 28 => ⟨S1x32, .f32⟩
  | 29 => ⟨S1x3, .f32⟩
  | 30 => ⟨S1x3, .f32⟩
  | 31 => ⟨S1x3, .f32⟩
  | 32 => ⟨S1x3, .f32⟩
  | 33 => ⟨S1x3, .f32⟩
  | 34 => ⟨S_, .f32⟩
  | 35 => ⟨S1x3, .f32⟩
  | 36 => ⟨S1x3, .f32⟩
  | 37 => ⟨S_, .f32⟩
  | 38 => ⟨S1x3, .f32⟩
  | 39 => ⟨S1x3, .f32⟩
  | 40 => ⟨S1x800000, .i32⟩
  | 41 => ⟨S800000, .i32⟩
  | 42 => ⟨S1x800000, .i32⟩
  | 43 => ⟨S800000, .i32⟩
  | 44 => ⟨S1x128x128, .f32⟩
  | 45 => ⟨S128x128, .f32⟩
  | 46 => ⟨S50000x128, .f32⟩
  | 47 => ⟨S1x128, .f32⟩
  | 48 => ⟨S128, .f32⟩
  | 49 => ⟨S1x128, .f32⟩
  | 50 => ⟨S50000x128, .f32⟩
  | 51 => ⟨S50000x128, .f32⟩
  | 52 => ⟨S1x1, .f32⟩
  | 53 => ⟨S_, .f32⟩
  | 54 => ⟨S50000x128, .f32⟩
  | 55 => ⟨S50000x128, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S_, .f32⟩
  | 70 => ⟨S800000x1, .f32⟩
  | 71 => ⟨S_, .f32⟩
  | 72 => ⟨S50000x1, .f32⟩
  | 73 => ⟨S800000x1, .i32⟩
  | 74 => ⟨S50000x1, .f32⟩
  | 75 => ⟨S_, .f32⟩
  | 76 => ⟨S50000x1, .f32⟩
  | 77 => ⟨S50000x1, .f32⟩
  | 78 => ⟨S50000x128, .f32⟩
  | 79 => ⟨S50000x128, .f32⟩
  | 80 => ⟨S1x128x128, .f32⟩
  | 81 => ⟨S128x128, .f32⟩
  | 82 => ⟨S50000x128, .f32⟩
  | 83 => ⟨S1x128, .f32⟩
  | 84 => ⟨S128, .f32⟩
  | 85 => ⟨S1x128, .f32⟩
  | 86 => ⟨S50000x128, .f32⟩
  | 87 => ⟨S50000x128, .f32⟩
  | 88 => ⟨S1x1, .f32⟩
  | 89 => ⟨S_, .f32⟩
  | 90 => ⟨S50000x128, .f32⟩
  | 91 => ⟨S50000x128, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x128, .f32⟩
  | 101 => ⟨S_, .f32⟩
  | 102 => ⟨S50000x128, .f32⟩
  | 103 => ⟨S800000x1, .i32⟩
  | 104 => ⟨S50000x128, .f32⟩
  | 105 => ⟨S_, .f32⟩
  | 106 => ⟨S800000x1, .f32⟩
  | 107 => ⟨S_, .f32⟩
  | 108 => ⟨S50000x1, .f32⟩
  | 109 => ⟨S800000x1, .i32⟩
  | 110 => ⟨S50000x1, .f32⟩
  | 111 => ⟨S_, .f32⟩
  | 112 => ⟨S50000x1, .f32⟩
  | 113 => ⟨S50000x1, .f32⟩
  | 114 => ⟨S50000x128, .f32⟩
  | 115 => ⟨S50000x128, .f32⟩
  | 116 => ⟨S1x128x128, .f32⟩
  | 117 => ⟨S128x128, .f32⟩
  | 118 => ⟨S50000x128, .f32⟩
  | 119 => ⟨S1x128, .f32⟩
  | 120 => ⟨S128, .f32⟩
  | 121 => ⟨S1x128, .f32⟩
  | 122 => ⟨S50000x128, .f32⟩
  | 123 => ⟨S50000x128, .f32⟩
  | 124 => ⟨S1x1, .f32⟩
  | 125 => ⟨S_, .f32⟩
  | 126 => ⟨S50000x128, .f32⟩
  | 127 => ⟨S50000x128, .f32⟩
  | _ => ⟨S50000x128, .f32⟩

abbrev hbmTy0_1 (i : Nat) : BufTy := match i % 128 with
  | 0 => ⟨S50000x384, .f32⟩
  | 1 => ⟨S50000x3, .f32⟩
  | 2 => ⟨S1x3, .f32⟩
  | 3 => ⟨S50000x3, .f32⟩
  | 4 => ⟨S50000x3, .f32⟩
  | 5 => ⟨S_, .f32⟩
  | 6 => ⟨S50000, .f32⟩
  | 7 => ⟨S_, .f32⟩
  | 8 => ⟨S50000, .f32⟩
  | 9 => ⟨S50000, .f32⟩
  | 10 => ⟨S50000x1, .f32⟩
  | 11 => ⟨S50000x3, .f32⟩
  | 12 => ⟨S50000x3, .f32⟩
  | 13 => ⟨S50000x3, .f32⟩
  | 14 => ⟨S_, .f32⟩
  | 15 => ⟨S50000, .f32⟩
  | 16 => ⟨S50000x1, .f32⟩
  | 17 => ⟨S50000x3, .f32⟩
  | 18 => ⟨S50000x3, .f32⟩
  | 19 => ⟨S50000x1, .f32⟩
  | 20 => ⟨S50000x128, .f32⟩
  | 21 => ⟨S50000x128, .f32⟩
  | 22 => ⟨S50000x1, .f32⟩
  | 23 => ⟨S50000x128, .f32⟩
  | 24 => ⟨S50000x128, .f32⟩
  | 25 => ⟨S50000x1, .f32⟩
  | 26 => ⟨S50000x128, .f32⟩
  | 27 => ⟨S50000x128, .f32⟩
  | 28 => ⟨S50000x384, .f32⟩
  | 29 => ⟨S50000x128, .f32⟩
  | 30 => ⟨S1x128, .f32⟩
  | 31 => ⟨S50000x128, .f32⟩
  | 32 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call0_cst : Ref sig .tc := ⟨.hbm, 26, rfl⟩
abbrev main_call0_v0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_1 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_3 : Ref sig .tc := ⟨.hbm, 56, rfl⟩
abbrev main_v36 : Ref sig .tc := ⟨.hbm, 57, rfl⟩
abbrev main_v37 : Ref sig .tc := ⟨.hbm, 58, rfl⟩
abbrev main_c_4 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_5 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_6 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_9 : Ref sig .tc := ⟨.hbm, 92, rfl⟩
abbrev main_v66 : Ref sig .tc := ⟨.hbm, 93, rfl⟩
abbrev main_v67 : Ref sig .tc := ⟨.hbm, 94, rfl⟩
abbrev main_c_10 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_11 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_12 : Ref sig .tc := ⟨.hbm, 105, rfl⟩
abbrev main_v76 : Ref sig .tc := ⟨.hbm, 106, rfl⟩
abbrev main_cst_13 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_14 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_15 : Ref sig .tc := ⟨.hbm, 133, rfl⟩
abbrev main_v101 : Ref sig .tc := ⟨.hbm, 134, rfl⟩
abbrev main_cst_16 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_cst_17 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩

abbrev nD : Nat := 1
abbrev τ : Topo := Topo.v7x

variable {F : FTy → Type} [FloatOps F]

class Facts₀ : Prop where
  reducesTo_S50000_S_d0 : S50000.ReducesTo [0] S_
  h_S_ : 0 < S_.numel
  bcast_S_S1 : S_.BroadcastsInDim S1 (![] : Fin 0 → Fin S1.rank)
  concatenates_S1_S1_S2_d0 : Shape.Concatenates [S1, S1] S2 0
  bcast_S2_S1x2_1 : S2.BroadcastsInDim S1x2 (![1] : Fin 1 → Fin S1x2.rank)
  bcast_S32_S1x32_1 : S32.BroadcastsInDim S1x32 (![1] : Fin 1 → Fin S1x32.rank)
  bcast_S_S1x32 : S_.BroadcastsInDim S1x32 (![] : Fin 0 → Fin S1x32.rank)
  bcast_S3_S1x3_1 : S3.BroadcastsInDim S1x3 (![1] : Fin 1 → Fin S1x3.rank)
  bcast_S_S1x3 : S_.BroadcastsInDim S1x3 (![] : Fin 0 → Fin S1x3.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S1x3_S1x1_0_0 : S1x3.Slices ![0, 0] S1x1
  shapeCasts_S1x1_S_ : S1x1.ShapeCasts S_
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S1x3_S1x1_0_1 : S1x3.Slices ![0, 1] S1x1
  slices_S3x128x128_S1x128x128_2_0_0 : S3x128x128.Slices ![2, 0, 0] S1x128x128
  slices_S3x128_S1x128_2_0 : S3x128.Slices ![2, 0] S1x128
  slices_S1x3_S1x1_0_2 : S1x3.Slices ![0, 2] S1x1
  concatenates_S50000x128_S50000x128_S50000x128_S50000x384_d1 : Shape.Concatenates [S50000x128, S50000x128, S50000x128] S50000x384 1
  bcast_S1x3_S50000x3_0_1 : S1x3.BroadcastsInDim S50000x3 (![0, 1] : Fin 2 → Fin S50000x3.rank)
  reducesTo_S50000x3_S50000_d1 : S50000x3.ReducesTo [1] S50000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x3_0_1 : S50000x1.BroadcastsInDim S50000x3 (![0, 1] : Fin 2 → Fin S50000x3.rank)
  slices_S50000x3_S50000x1_0_0 : S50000x3.Slices ![0, 0] S50000x1
  slices_S50000x3_S50000x1_0_1 : S50000x3.Slices ![0, 1] S50000x1
  slices_S50000x3_S50000x1_0_2 : S50000x3.Slices ![0, 2] S50000x1
  dot_S1x2_S2x32_S1x32_1_0_0_1_n_n_wf : DotDims.WF S1x2 S2x32 S1x32 [1] [0] [0] [1] [] []
  dot_S1x32_S32x3_S1x3_1_0_0_1_n_n_wf : DotDims.WF S1x32 S32x3 S1x3 [1] [0] [0] [1] [] []
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x384_S384x3_S50000x3_1_0_0_1_n_n_wf : DotDims.WF S50000x384 S384x3 S50000x3 [1] [0] [0] [1] [] []
  dot_S50000x384_S384x128_S50000x128_1_0_0_1_n_n_wf : DotDims.WF S50000x384 S384x128 S50000x128 [1] [0] [0] [1] [] []

variable [Facts₀]

def dot_S1x2_S2x32_S1x32_1_0_0_1_n_n : DotDims S1x2 S2x32 S1x32 where
  lhsContracting := [1]
  rhsContracting := [0]
  lhsNonContracting := [0]
  rhsNonContracting := [1]
  lhsBatch := []
  rhsBatch := []
  wf := dot_S1x2_S2x32_S1x32_1_0_0_1_n_n_wf
def dot_S1x32_S32x3_S1x3_1_0_0_1_n_n : DotDims S1x32 S32x3 S1x3 where
  lhsContracting := [1]
  rhsContracting := [0]
  lhsNonContracting := [0]
  rhsNonContracting := [1]
  lhsBatch := []
  rhsBatch := []
  wf := dot_S1x32_S32x3_S1x3_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x384_S384x3_S50000x3_1_0_0_1_n_n : DotDims S50000x384 S384x3 S50000x3 where
  lhsContracting := [1]
  rhsContracting := [0]
  lhsNonContracting := [0]
  rhsNonContracting := [1]
  lhsBatch := []
  rhsBatch := []
  wf := dot_S50000x384_S384x3_S50000x3_1_0_0_1_n_n_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf

class Facts : Prop extends Facts₀ where

variable [Facts]
-- ==== Proof.Spec.lean ====
/-
  The fusion layer as one function of its arrays.

  For one node (one row) the layer takes three "current" feature rows x₀, x₁, x₂ (the node's own features, the mean
  over its in-neighbours, the mean of those means), sends each through its own affine map and gate,
      t_n(j) = (Σ_l x_n(l) · Wh(n, l, j) + bh(n, j)) · sw(n),
  lays the three results side by side (position c of 384 holds entry c mod 128 of row c div 128), scores the three
  hops by a linear map of that long row, turns the scores into weights by a softmax over the three hops
      att(a) = exp(z(a) − max z) / Σ_b exp(z(b) − max z),
  scales each hop's row by its weight, and maps the long weighted row to the output row by a last affine map.
  Everything is stated on the extended reals with the ideal operations; no finiteness is used anywhere.
-/
import Idealize.ShloMosaic.PureOps.Ideal
import Idealize.ShloMosaic.PureOps.Ideal.Laws
import Idealize.ShloMosaic.Lib.ValueIdx

noncomputable section

open scoped BigOperators

namespace Cert.Fusion

open Idealize.ShloMosaic Idealize.ShloMosaic.ValueIdx

/-- Which of the three hops position `c` of the long row belongs to. -/
def hopOf (c : Fin 384) : Fin 3 := ⟨c.val / 128, by have := c.isLt; omega⟩
/-- The position inside its hop's row. -/
def posOf (c : Fin 384) : Fin 128 := ⟨c.val % 128, Nat.mod_lt _ (by norm_num)⟩

/-- One hop's row: the affine map of the current row, times the hop's gate. -/
def hopRow (x : Fin 128 → EReal) (W : Fin 128 → Fin 128 → EReal) (b : Fin 128 → EReal) (s : EReal) (j : Fin 128) : EReal :=
  ((∑ l : Fin 128, x l * W l j) + b j) * s

/-- The least value a float maximum starts from: the word of −∞, kept as its word. -/
abbrev negInf : EReal := Ideal.ofBits .f32 0xFF800000#32

/-- The largest of three scores (a maximum started from −∞, and once more against −∞). -/
def top3 (z : Fin 3 → EReal) : EReal := max negInf ((Finset.univ : Finset (Fin 3)).fold max negInf z)

/-- Softmax over the three hops. -/
def softmax3 (z : Fin 3 → EReal) (a : Fin 3) : EReal :=
  Ideal.div (Ideal.exp (z a - top3 z)) (∑ b : Fin 3, Ideal.exp (z b - top3 z))

/-- The scores of the three hops from the long row. -/
def scores (t : Fin 3 → Fin 128 → EReal) (Wa : Fin 384 → Fin 3 → EReal) (ba : Fin 3 → EReal) (a : Fin 3) : EReal :=
  (∑ c : Fin 384, t (hopOf c) (posOf c) * Wa c a) + ba a

/-- The output row from the hops' rows and their weights. -/
def mix (t : Fin 3 → Fin 128 → EReal) (att : Fin 3 → EReal) (Wf : Fin 384 → Fin 128 → EReal) (bf : Fin 128 → EReal)
    (q : Fin 128) : EReal :=
  (∑ c : Fin 384, (t (hopOf c) (posOf c) * att (hopOf c)) * Wf c q) + bf q

/-- The whole layer on one node. -/
def fusion (x : Fin 3 → Fin 128 → EReal) (Wh : Fin 3 → Fin 128 → Fin 128 → EReal) (bh : Fin 3 → Fin 128 → EReal)
    (sw : Fin 3 → EReal) (Wa : Fin 384 → Fin 3 → EReal) (ba : Fin 3 → EReal) (Wf : Fin 384 → Fin 128 → EReal)
    (bf : Fin 128 → EReal) (q : Fin 128) : EReal :=
  mix (fun n => hopRow (x n) (Wh n) (bh n) (sw n))
    (softmax3 (scores (fun n => hopRow (x n) (Wh n) (bh n) (sw n)) Wa ba)) Wf bf q

/-- The layer on all 50000 nodes: the output array as one function, index by index, of the three current arrays,
    the weights and the gates. Row `i 0` of the result depends on row `i 0` of each current array only. -/
def G (X : Fin 3 → (⟨2, ![50000, 128]⟩ : Shape).Idx → EReal) (Wh : (⟨3, ![3, 128, 128]⟩ : Shape).Idx → EReal)
    (bh : (⟨2, ![3, 128]⟩ : Shape).Idx → EReal) (sw : (⟨2, ![1, 3]⟩ : Shape).Idx → EReal)
    (Wa : (⟨2, ![384, 3]⟩ : Shape).Idx → EReal) (ba : (⟨1, ![3]⟩ : Shape).Idx → EReal)
    (Wf : (⟨2, ![384, 128]⟩ : Shape).Idx → EReal) (bf : (⟨1, ![128]⟩ : Shape).Idx → EReal) :
    (⟨2, ![50000, 128]⟩ : Shape).Idx → EReal :=
  fun i => fusion (fun n l => X n (ix2 (i 0) l)) (fun n l j => Wh (ix3 n l j)) (fun n j => bh (ix2 n j))
    (fun n => sw (ix2 (0 : Fin 1) n)) (fun c a => Wa (ix2 c a)) (fun a => ba (ix1 a)) (fun c q => Wf (ix2 c q))
    (fun q => bf (ix1 q)) (i 1)

/-- A quotient by a number that is at least one is the product with its reciprocal, on every extended real:
    `max c 1` is never zero, so both sides are `x · (max c 1)⁻¹`. -/
theorem mul_recip_max_one (x c : EReal) : x * Ideal.div 1 (max c 1) = Ideal.div x (max c 1) := by
  have h : max c 1 ≠ 0 := ne_of_gt (lt_of_lt_of_le zero_lt_one (le_max_right c 1))
  rw [Ideal.div, Ideal.div, if_neg h, if_neg h, one_mul]

end Cert.Fusion

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.LibColumn.lean ====
/-
  Two keepdims column layouts read at an index given by coordinates.

  A length-a vector viewed as an a×1 column reads, at (i, 0), the vector at i; an a×1 column broadcast over b
  columns reads, at (p, c), the column's entry at row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Payload.lean ====
/-
  The body's arithmetic read at one index.

  For one block of 2000 nodes the body forms the three hops' rows (each current block through its own affine map —
  a matrix product with the hop's 128×128 weight slice plus the hop's bias row — and times the hop's gate; the third
  current block is itself formed in the body, the raw second-hop sum times the row's reciprocal count), lays them
  side by side into a long row of 384, scores the three hops by a linear map of the long row, turns each row's three
  scores into weights by a softmax (the maximum taken from −∞), scales each hop's row by its weight, and maps the
  weighted long row to the output row by a last affine map. Read at the ideal values — where a change of float
  format is the identity and every operation is the exact one on the extended reals — entry (p, q) of what the body
  stores is the specification's `fusion` of row p of the three current blocks, at q. No finiteness is used.

  The proof names each stretch of the body's arithmetic by a definition spelt exactly as the generated payloads
  print it (so that the payloads are those definitions composed, by unfolding), reads each one at an index given by
  explicit coordinates with one small lemma, and assembles.
-/
import proofs.«130495_j88278757802661_2_alg».proof.Proof.Gen.KernelIdeal.Skeleton
import proofs.«130495_j88278757802661_2_alg».proof.Proof.Spec
import proofs.«130495_j88278757802661_2_alg».proof.Proof.LibPlainDot
import proofs.«130495_j88278757802661_2_alg».proof.Proof.LibColumn
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

open scoped BigOperators

namespace Cert.Fusion.Body

open Cert.KernelIdeal Cert.KernelIdeal.Gen Idealize.ShloMosaic Idealize.ShloMosaic.ValueIdx

/-! ## The pieces of the body, named

Each definition below spells one stretch of the body's arithmetic exactly as the generated payloads print it, so
that the payloads are these definitions composed (by unfolding), and each piece is then read at an index by its
own lemma. -/

/-- One hop's affine map as the body computes it: the block times the hop's weight slice (a matrix product into a
    zero accumulator), plus the hop's bias row laid over all rows. -/
def affineV (x : FVec Ideal S2000x128 .f32) (W : Vec Ideal S1x128x128 .f32) (b : Vec Ideal S1x128 .f32) :
    FVec Ideal S2000x128 .f32 :=
  addf (matmul dot_S2000x128_S128x128_S2000x128_1_0_0_1_n_n none (truncf .bf16 x bitsLt_bf16_f32)
      (truncf .bf16 (shapeCast S128x128 W shapeCasts_S1x128x128_S128x128) bitsLt_bf16_f32)
      (constant (F := Ideal) S2000x128 .f32 0x00000000#32))
    (broadcastTo S2000x128 (shapeCast S1x128 (shapeCast S128 b shapeCasts_S1x128_S128) shapeCasts_S128_S1x128)
      broadcasts_S1x128_S2000x128)

/-- The three rows laid side by side. -/
def concat3 (a b c : FVec Ideal S2000x128 .f32) : FVec Ideal S2000x384 .f32 :=
  concatenate S2000x384 1 [⟨S2000x128, a⟩, ⟨S2000x128, b⟩, ⟨S2000x128, c⟩]
    concatenates_S2000x128_S2000x128_S2000x128_S2000x384_d1

/-- The scores: the long row times the score map, plus the score bias laid over all rows. -/
def scoresV (y : FVec Ideal S2000x384 .f32) (v55 : Vec Ideal S384x3 .f32) (v59 : Vec Ideal S3 .f32) :
    FVec Ideal S2000x3 .f32 :=
  addf (matmul dot_S2000x384_S384x3_S2000x3_1_0_0_1_n_n none (truncf .bf16 y bitsLt_bf16_f32)
      (truncf .bf16 v55 bitsLt_bf16_f32) (constant (F := Ideal) S2000x3 .f32 0x00000000#32))
    (broadcastTo S2000x3 (shapeCast S1x3 v59 shapeCasts_S3_S1x3) broadcasts_S1x3_S2000x3)

/-- Each row's largest score: a maximum over the three hops started from −∞, and once more against −∞. -/
def rowMaxV (z : FVec Ideal S2000x3 .f32) : FVec Ideal S2000 .f32 :=
  maximumf (broadcast S2000 (Scalar.ofBits (F := Ideal) .f32 0xFF800000#32))
    (multiReduction (F := Ideal) .maximumf [1] S2000 z 0xFF800000#32 reduces_S2000x3_S2000 (.inl rfl) rfl)

/-- The exponentials of the scores less their row's largest. -/
def expV (z : FVec Ideal S2000x3 .f32) : FVec Ideal S2000x3 .f32 :=
  exp (subf z (broadcastTo S2000x3 (shapeCast S2000x1 (rowMaxV z) shapeCasts_S2000_S2000x1) broadcasts_S2000x1_S2000x3))

/-- The softmax weights: each exponential over its row's sum of exponentials. -/
def softV (z : FVec Ideal S2000x3 .f32) : FVec Ideal S2000x3 .f32 :=
  divf (expV z)
    (broadcastTo S2000x3
      (shapeCast S2000x1
        (multiReduction (F := Ideal) .add [1] S2000 (expV z) 0x00000000#32 reduces_S2000x3_S2000 (.inl rfl) rfl)
        shapeCasts_S2000_S2000x1)
      broadcasts_S2000x1_S2000x3)

/-- A hop's rows, each times that row's weight for the hop (column `o` of the weights). -/
def scaledV (y : FVec Ideal S2000x128 .f32) (w : FVec Ideal S2000x3 .f32) (o : Nat) (h : S2000x3.Slices ![0, o] S2000x1) :
    FVec Ideal S2000x128 .f32 :=
  mulf y (broadcastTo S2000x128 (extractStridedSlice S2000x1 ![0, o] w h) broadcasts_S2000x1_S2000x128)

/-- The weighted long row from the three hops' rows. -/
def mixedV (a b c : FVec Ideal S2000x128 .f32) (v55 : Vec Ideal S384x3 .f32) (v59 : Vec Ideal S3 .f32) :
    FVec Ideal S2000x384 .f32 :=
  concat3 (scaledV a (softV (scoresV (concat3 a b c) v55 v59)) 0 slices_S2000x3_o0_0_S2000x1)
    (scaledV b (softV (scoresV (concat3 a b c) v55 v59)) 1 slices_S2000x3_o0_1_S2000x1)
    (scaledV c (softV (scoresV (concat3 a b c) v55 v59)) 2 slices_S2000x3_o0_2_S2000x1)

/-- Gate `o` of the gate row, as the body extracts it: a one-by-one slice, then its only entry. -/
def gateV (g : FVec Ideal S1x3 .f32) (o : Nat) (h : S1x3.Slices ![0, o] S1x1) : Ideal .f32 :=
  extractAt ![0, 0] (extractStridedSlice S1x1 ![0, o] g h) inpos_S1x1_p0_0

/-! ## The payloads are these pieces composed -/

theorem pay4_eq (v7 : Vec Ideal S2000x128 .f32) (v10 : Vec Ideal S1x3 .f32) (v13 : Vec Ideal S1x128x128 .f32)
    (v17 : Vec Ideal S1x128 .f32) :
    k0_pay4 (F := Ideal) v7 v10 v13 v17
      = mulf (affineV v7 v13 v17) (broadcast S2000x128 (gateV (k0_pay3 v10) 0 slices_S1x3_o0_0_S1x1)) := rfl

theorem pay5_eq (v8 : Vec Ideal S2000x128 .f32) (v27 : Vec Ideal S1x128x128 .f32) (v31 : Vec Ideal S1x128 .f32) :
    k0_pay5 (F := Ideal) v8 v27 v31 = affineV (shapeCast S2000x128 v8 shapeCasts_S2000x128_S2000x128) v27 v31 := rfl

theorem pay7_eq (v6 : FVec Ideal S2000x128 .f32) (v11 : FVec Ideal S1x3 .f32) (v25 v35 : FVec Ideal S2000x128 .f32)
    (v36 : FVec Ideal S1x1 .f32) (v41 : Vec Ideal S1x128x128 .f32) (v45 : Vec Ideal S1x128 .f32)
    (v55 : Vec Ideal S384x3 .f32) (v59 : Vec Ideal S3 .f32) :
    k0_pay7 (F := Ideal) v6 v11 v25 v35 v36 v41 v45 v55 v59
      = mixedV v25 (mulf v35 (broadcast S2000x128 (extractAt ![0, 0] v36 inpos_S1x1_p0_0)))
          (mulf (affineV v6 v41 v45) (broadcast S2000x128 (gateV v11 2 slices_S1x3_o0_2_S1x1))) v55 v59 := rfl

/-! ## Each piece read at an index -/

/-- The printed dimension record of the hop products is the plain 2000×128 by 128×128 product's. -/
theorem dot_hop_eq : dot_S2000x128_S128x128_S2000x128_1_0_0_1_n_n = DotDims.plain 2000 128 128 := rfl
/-- The printed dimension record of the score product is the plain 2000×384 by 384×3 product's. -/
theorem dot_score_eq : dot_S2000x384_S384x3_S2000x3_1_0_0_1_n_n = DotDims.plain 2000 384 3 := rfl
/-- The printed dimension record of the output product is the plain 2000×384 by 384×128 product's. -/
theorem dot_out_eq : dot_S2000x384_S384x128_S2000x128_1_0_0_1_n_n = DotDims.plain 2000 384 128 := rfl

/-- The affine map at (p, j): the row's product with column j of the weight slice, plus entry j of the bias row. -/
theorem affineV_apply (x : FVec Ideal S2000x128 .f32) (W : Vec Ideal S1x128x128 .f32) (b : Vec Ideal S1x128 .f32)
    (p : Fin 2000) (j : Fin 128) :
    affineV x W b (ix2 p j) = (∑ l : Fin 128, x (ix2 p l) * W (ix3 (0 : Fin 1) l j)) + b (ix2 (0 : Fin 1) j) := by
  unfold affineV
  rw [addf_apply, dot_hop_eq]
  refine congrArg₂ (· + ·) ?_ ?_
  · refine (Cert.LibPlainDot.matmul_zero_apply none _ _ p j).trans (Finset.sum_congr rfl fun l _ => ?_)
    rw [truncf_apply, truncf_apply]
    exact congrArg (x (ix2 p l) * ·) (shapeCast_1ab_ab_apply W _ l j)
  · refine (broadcastTo_1b_ab_apply _ _ p j).trans ?_
    refine (shapeCast_a_1a_apply _ _ (0 : Fin 1) j).trans ?_
    exact shapeCast_1a_a_apply b _ j

/-- Gate `o` is entry (0, o) of the gate row. -/
theorem gateV_apply (g : FVec Ideal S1x3 .f32) (o : Nat) (h : S1x3.Slices ![0, o] S1x1) (k : Fin 3) (hk : k.val = o) :
    gateV g o h = g (ix2 (0 : Fin 1) k) := by
  unfold gateV extractAt
  refine extractStridedSlice_apply ![0, o] g h _ (ix2 (0 : Fin 1) k) fun a => ?_
  match a with
  | ⟨0, _⟩ => rfl
  | ⟨1, _⟩ => exact hk

/-- A gated affine map at (p, j) is the hop's row of the specification. -/
theorem hop_apply (x : FVec Ideal S2000x128 .f32) (W : Vec Ideal S1x128x128 .f32) (b : Vec Ideal S1x128 .f32)
    (s : EReal) (p : Fin 2000) (j : Fin 128) :
    mulf (affineV x W b) (broadcast S2000x128 s) (ix2 p j)
      = hopRow (fun l => x (ix2 p l)) (fun l j => W (ix3 (0 : Fin 1) l j)) (fun j => b (ix2 (0 : Fin 1) j)) s j := by
  rw [mulf_apply, broadcast_apply, affineV_apply]
  rfl

/-- Three rows side by side at (p, c): row `c / 128` at (p, c % 128). -/
theorem concat3_apply (a b c : FVec Ideal S2000x128 .f32) (p : Fin 2000) (k : Fin 384) :
    concat3 a b c (ix2 p k) = (![a, b, c] : Fin 3 → FVec Ideal S2000x128 .f32) (hopOf k) (ix2 p (posOf k)) := by
  unfold concat3
  show concatenate S2000x384 1
      (List.ofFn fun n : Fin 3 => (⟨S2000x128, (![a, b, c] : Fin 3 → FVec Ideal S2000x128 .f32) n⟩ : (s : Shape) × (s.Idx → EReal)))
      concatenates_S2000x128_S2000x128_S2000x128_S2000x384_d1 (ix2 p k) = _
  refine concatenate_ofFn_apply (t := S2000x384) (s₁ := S2000x128) (1 : Fin 2) _ _ rfl 128 rfl (ix2 p k) (hopOf k) rfl (ix2 p (posOf k)) rfl fun d => ?_
  match d with
  | ⟨0, _⟩ => exact fun _ => rfl
  | ⟨1, _⟩ => exact fun hd => absurd rfl hd

/-- The scores at (p, a): the long row times column a of the score map, plus entry a of the score bias. -/
theorem scoresV_apply (y : FVec Ideal S2000x384 .f32) (v55 : Vec Ideal S384x3 .f32) (v59 : Vec Ideal S3 .f32)
    (p : Fin 2000) (a : Fin 3) :
    scoresV y v55 v59 (ix2 p a) = (∑ c : Fin 384, y (ix2 p c) * v55 (ix2 c a)) + v59 (ix1 a) := by
  unfold scoresV
  rw [addf_apply, dot_score_eq]
  refine congrArg₂ (· + ·) ?_ ?_
  · refine (Cert.LibPlainDot.matmul_zero_apply none _ _ p a).trans (Finset.sum_congr rfl fun l _ => ?_)
    rw [truncf_apply, truncf_apply]
  · refine (broadcastTo_1b_ab_apply _ _ p a).trans ?_
    exact shapeCast_a_1a_apply v59 _ (0 : Fin 1) a

/-- The source index over row `p` whose hop coordinate is `k` is `(p, k)`. -/
theorem lift_row (p : Fin 2000) (k : Fin 3) : reduces_S2000x3_S2000.lift (ix1 p) k = ix2 p k :=
  funext fun a => Fin.ext (by match a with | ⟨0, _⟩ => rfl | ⟨1, _⟩ => rfl)

/-- A row's largest score is the specification's `top3` of that row's three scores. -/
theorem rowMaxV_apply (z : FVec Ideal S2000x3 .f32) (p : Fin 2000) :
    rowMaxV z (ix1 p) = top3 (fun a => z (ix2 p a)) := by
  unfold rowMaxV top3
  rw [maximumf_apply, broadcast_apply]
  refine congrArg₂ max rfl ?_
  refine (Ideal.multiReduction_maximumf_single z _ reduces_S2000x3_S2000 _ _ (ix1 p)).trans ?_
  have e : (z ∘ reduces_S2000x3_S2000.lift (ix1 p)) = fun a : Fin 3 => z (ix2 p a) :=
    funext fun k => congrArg z (lift_row p k)
  exact congrArg (fun f : Fin 3 → EReal => (Finset.univ : Finset (Fin 3)).fold max negInf f) e

/-- The exponential at (p, a): of the score less the row's largest. -/
theorem expV_apply (z : FVec Ideal S2000x3 .f32) (p : Fin 2000) (a : Fin 3) :
    expV z (ix2 p a) = Ideal.exp (z (ix2 p a) - top3 (fun b => z (ix2 p b))) := by
  unfold expV
  show Ideal.exp (subf z (broadcastTo S2000x3 (shapeCast S2000x1 (rowMaxV z) shapeCasts_S2000_S2000x1)
      broadcasts_S2000x1_S2000x3) (ix2 p a)) = _
  rw [subf_apply]
  refine congrArg (fun t => Ideal.exp (z (ix2 p a) - t)) ?_
  refine (Cert.LibColumn.broadcastTo_a1_ab_apply _ _ p a).trans ?_
  refine (Cert.LibColumn.shapeCast_a_a1_apply _ _ p (0 : Fin 1)).trans ?_
  exact rowMaxV_apply z p

/-- The weights at (p, a) are the specification's softmax of that row's three scores. -/
theorem softV_apply (z : FVec Ideal S2000x3 .f32) (p : Fin 2000) (a : Fin 3) :
    softV z (ix2 p a) = softmax3 (fun b => z (ix2 p b)) a := by
  unfold softV softmax3
  rw [divf_apply, expV_apply]
  refine congrArg (Ideal.div _) ?_
  refine (Cert.LibColumn.broadcastTo_a1_ab_apply _ _ p a).trans ?_
  refine (Cert.LibColumn.shapeCast_a_a1_apply _ _ p (0 : Fin 1)).trans ?_
  refine (Ideal.multiReduction_add_single _ _ reduces_S2000x3_S2000 _ _ (ix1 p)).trans ?_
  refine Finset.sum_congr rfl fun k _ => ?_
  exact (congrArg (expV z) (lift_row p k)).trans (expV_apply z p k)

/-- A hop's row times its weight, at (p, j). -/
theorem scaledV_apply (y : FVec Ideal S2000x128 .f32) (w : FVec Ideal S2000x3 .f32) (o : Nat)
    (h : S2000x3.Slices ![0, o] S2000x1) (k : Fin 3) (hk : k.val = o) (p : Fin 2000) (j : Fin 128) :
    scaledV y w o h (ix2 p j) = y (ix2 p j) * w (ix2 p k) := by
  unfold scaledV
  rw [mulf_apply]
  refine congrArg (y (ix2 p j) * ·) ?_
  refine (Cert.LibColumn.broadcastTo_a1_ab_apply _ _ p j).trans ?_
  exact slice2_axis1_apply o w h p (0 : Fin 1) k hk

/-- The weighted long row at (p, k): the hop's row entry times the hop's softmax weight, the scores being the
    specification's scores of the three hops' rows. -/
theorem mixedV_apply (a b c : FVec Ideal S2000x128 .f32) (v55 : Vec Ideal S384x3 .f32) (v59 : Vec Ideal S3 .f32)
    (p : Fin 2000) (k : Fin 384) :
    mixedV a b c v55 v59 (ix2 p k)
      = (![a, b, c] : Fin 3 → FVec Ideal S2000x128 .f32) (hopOf k) (ix2 p (posOf k))
          * softmax3 (scores (fun n j => (![a, b, c] : Fin 3 → FVec Ideal S2000x128 .f32) n (ix2 p j))
              (fun c a => v55 (ix2 c a)) (fun a => v59 (ix1 a))) (hopOf k) := by
  have hz : (fun b' : Fin 3 => scoresV (concat3 a b c) v55 v59 (ix2 p b'))
      = scores (fun n j => (![a, b, c] : Fin 3 → FVec Ideal S2000x128 .f32) n (ix2 p j))
          (fun c a => v55 (ix2 c a)) (fun a => v59 (ix1 a)) := by
    funext a'
    rw [scoresV_apply]
    unfold scores
    refine congrArg (· + v59 (ix1 a')) (Finset.sum_congr rfl fun c' _ => ?_)
    rw [concat3_apply]
  unfold mixedV
  rw [concat3_apply, ← hz]
  generalize hopOf k = n
  generalize posOf k = j
  match n with
  | ⟨0, _⟩ =>
    exact (scaledV_apply a _ 0 _ (0 : Fin 3) rfl p j).trans (congrArg (a (ix2 p j) * ·) (softV_apply _ p (0 : Fin 3)))
  | ⟨1, _⟩ =>
    exact (scaledV_apply b _ 1 _ (1 : Fin 3) rfl p j).trans (congrArg (b (ix2 p j) * ·) (softV_apply _ p (1 : Fin 3)))
  | ⟨2, _⟩ =>
    exact (scaledV_apply c _ 2 _ (2 : Fin 3) rfl p j).trans (congrArg (c (ix2 p j) * ·) (softV_apply _ p (2 : Fin 3)))

/-- The output map as the body computes it: the weighted long row times the output map, plus the output bias laid
    over all rows. -/
def outV (y : FVec Ideal S2000x384 .f32) (v84 : Vec Ideal S384x128 .f32) (v88 : Vec Ideal S128 .f32) :
    FVec Ideal S2000x128 .f32 :=
  addf (matmul dot_S2000x384_S384x128_S2000x128_1_0_0_1_n_n none (truncf .bf16 y bitsLt_bf16_f32)
      (truncf .bf16 v84 bitsLt_bf16_f32) (constant (F := Ideal) S2000x128 .f32 0x00000000#32))
    (broadcastTo S2000x128 (shapeCast S1x128 v88 shapeCasts_S128_S1x128) broadcasts_S1x128_S2000x128)

theorem pay1_eq (y : FVec Ideal S2000x384 .f32) (v84 : Vec Ideal S384x128 .f32) (v88 : Vec Ideal S128 .f32) :
    k0_pay1 (F := Ideal) y v84 v88 = outV y v84 v88 := rfl

/-- The output at (p, q): the weighted long row times column q of the output map, plus entry q of the output bias. -/
theorem outV_apply (y : FVec Ideal S2000x384 .f32) (v84 : Vec Ideal S384x128 .f32) (v88 : Vec Ideal S128 .f32)
    (p : Fin 2000) (q : Fin 128) :
    outV y v84 v88 (ix2 p q) = (∑ c : Fin 384, y (ix2 p c) * v84 (ix2 c q)) + v88 (ix1 q) := by
  unfold outV
  rw [addf_apply, dot_out_eq]
  refine congrArg₂ (· + ·) ?_ ?_
  · refine (Cert.LibPlainDot.matmul_zero_apply none _ _ p q).trans (Finset.sum_congr rfl fun l _ => ?_)
    rw [truncf_apply, truncf_apply]
  · refine (broadcastTo_1b_ab_apply _ _ p q).trans ?_
    exact shapeCast_a_1a_apply v88 _ (0 : Fin 1) q

/-! ## The three hops' rows -/

theorem pay3_eq (v10 : Vec Ideal S1x3 .f32) : k0_pay3 (F := Ideal) v10 = v10 :=
  shapeCast_self v10 shapeCasts_S1x3_S1x3

theorem pay2_eq (v0 : Vec Ideal S2000x128 .f32) (v2 : Vec Ideal S2000x1 .f32) :
    k0_pay2 (F := Ideal) v0 v2
      = mulf (shapeCast S2000x128 v0 shapeCasts_S2000x128_S2000x128)
          (broadcastTo S2000x128
            (shapeCast S2000x1 (shapeCast S2000x1 v2 shapeCasts_S2000x1_S2000x1) shapeCasts_S2000x1_S2000x1)
            broadcasts_S2000x1_S2000x128) := rfl

/-- The third current block, formed in the body: the raw second-hop sum times the row's reciprocal count. -/
theorem pay2_apply (v0 : Vec Ideal S2000x128 .f32) (v2 : Vec Ideal S2000x1 .f32) (p : Fin 2000) (l : Fin 128) :
    k0_pay2 (F := Ideal) v0 v2 (ix2 p l) = v0 (ix2 p l) * v2 (ix2 p (0 : Fin 1)) := by
  rw [pay2_eq, shapeCast_self, shapeCast_self, shapeCast_self, mulf_apply]
  exact congrArg (v0 (ix2 p l) * ·) (Cert.LibColumn.broadcastTo_a1_ab_apply v2 _ p l)

/-- The three hops' rows as the body has them when it lays them side by side. -/
def rowsV (v7 v8 v0 : Vec Ideal S2000x128 .f32) (v2 : Vec Ideal S2000x1 .f32) (v10 : Vec Ideal S1x3 .f32)
    (v13 v27 v41 : Vec Ideal S1x128x128 .f32) (v17 v31 v45 : Vec Ideal S1x128 .f32) :
    Fin 3 → FVec Ideal S2000x128 .f32 :=
  ![k0_pay4 v7 v10 v13 v17,
    mulf (k0_pay5 v8 v27 v31) (broadcast S2000x128 (extractAt ![0, 0] (k0_pay6 v10) inpos_S1x1_p0_0)),
    mulf (affineV (k0_pay2 v0 v2) v41 v45) (broadcast S2000x128 (gateV (k0_pay3 v10) 2 slices_S1x3_o0_2_S1x1))]

/-- Each of the body's three rows, at (p, j), is the specification's hop row of the matching current row, weight
    slice, bias row and gate. -/
theorem rowsV_apply (v7 v8 v0 : Vec Ideal S2000x128 .f32) (v2 : Vec Ideal S2000x1 .f32) (v10 : Vec Ideal S1x3 .f32)
    (v13 v27 v41 : Vec Ideal S1x128x128 .f32) (v17 v31 v45 : Vec Ideal S1x128 .f32) (p : Fin 2000) (n : Fin 3)
    (j : Fin 128) :
    rowsV v7 v8 v0 v2 v10 v13 v27 v41 v17 v31 v45 n (ix2 p j)
      = hopRow (fun l => (![v7, v8, fun i => v0 i * v2 (ix2 (i 0) (0 : Fin 1))] : Fin 3 → S2000x128.Idx → EReal) n (ix2 p l))
          (fun l j => (![v13, v27, v41] : Fin 3 → S1x128x128.Idx → EReal) n (ix3 (0 : Fin 1) l j))
          (fun j => (![v17, v31, v45] : Fin 3 → S1x128.Idx → EReal) n (ix2 (0 : Fin 1) j))
          (v10 (ix2 (0 : Fin 1) n)) j := by
  match n with
  | ⟨0, _⟩ =>
    show k0_pay4 (F := Ideal) v7 v10 v13 v17 (ix2 p j) = _
    rw [pay4_eq, hop_apply, gateV_apply _ 0 _ (0 : Fin 3) rfl, pay3_eq]
    rfl
  | ⟨1, _⟩ =>
    show mulf (affineV (shapeCast S2000x128 v8 shapeCasts_S2000x128_S2000x128) v27 v31)
      (broadcast S2000x128 (gateV (k0_pay3 v10) 1 slices_S1x3_o0_1_S1x1)) (ix2 p j) = _
    rw [shapeCast_self, hop_apply, gateV_apply _ 1 _ (1 : Fin 3) rfl, pay3_eq]
    rfl
  | ⟨2, _⟩ =>
    show mulf (affineV (k0_pay2 v0 v2) v41 v45)
      (broadcast S2000x128 (gateV (k0_pay3 v10) 2 slices_S1x3_o0_2_S1x1)) (ix2 p j) = _
    rw [hop_apply, gateV_apply _ 2 _ (2 : Fin 3) rfl, pay3_eq]
    have e : (fun l : Fin 128 => k0_pay2 (F := Ideal) v0 v2 (ix2 p l)) = fun l => v0 (ix2 p l) * v2 (ix2 p (0 : Fin 1)) :=
      funext fun l => pay2_apply v0 v2 p l
    rw [e]
    rfl

/-! ## The body's arithmetic at an index -/

theorem payload_at (v7 v8 v0 : Vec Ideal S2000x128 .f32) (v2 : Vec Ideal S2000x1 .f32) (v10 : Vec Ideal S1x3 .f32)
    (v13 v27 v41 : Vec Ideal S1x128x128 .f32) (v17 v31 v45 : Vec Ideal S1x128 .f32) (v55 : Vec Ideal S384x3 .f32)
    (v59 : Vec Ideal S3 .f32) (v84 : Vec Ideal S384x128 .f32) (v88 : Vec Ideal S128 .f32) (p : Fin 2000) (q : Fin 128) :
    k0_pay1 (F := Ideal) (k0_pay7 (k0_pay2 v0 v2) (k0_pay3 v10) (k0_pay4 v7 v10 v13 v17) (k0_pay5 v8 v27 v31) (k0_pay6 v10) v41 v45 v55 v59) v84 v88 (ix2 p q)
      = Cert.Fusion.fusion
          (fun n l => (![v7, v8, fun i => v0 i * v2 (ix2 (i 0) (0 : Fin 1))] : Fin 3 → S2000x128.Idx → EReal) n (ix2 p l))
          (fun n l j => (![v13, v27, v41] : Fin 3 → S1x128x128.Idx → EReal) n (ix3 (0 : Fin 1) l j))
          (fun n j => (![v17, v31, v45] : Fin 3 → S1x128.Idx → EReal) n (ix2 (0 : Fin 1) j))
          (fun n => v10 (ix2 (0 : Fin 1) n)) (fun c a => v55 (ix2 c a)) (fun a => v59 (ix1 a))
          (fun c q => v84 (ix2 c q)) (fun q => v88 (ix1 q)) q := by
  rw [pay1_eq, outV_apply, pay7_eq]
  have hT : (fun (n : Fin 3) (j : Fin 128) => rowsV v7 v8 v0 v2 v10 v13 v27 v41 v17 v31 v45 n (ix2 p j))
      = fun n => hopRow (fun l => (![v7, v8, fun i => v0 i * v2 (ix2 (i 0) (0 : Fin 1))] : Fin 3 → S2000x128.Idx → EReal) n (ix2 p l))
          (fun l j => (![v13, v27, v41] : Fin 3 → S1x128x128.Idx → EReal) n (ix3 (0 : Fin 1) l j))
          (fun j => (![v17, v31, v45] : Fin 3 → S1x128.Idx → EReal) n (ix2 (0 : Fin 1) j))
          (v10 (ix2 (0 : Fin 1) n)) :=
    funext fun n => funext fun j => rowsV_apply v7 v8 v0 v2 v10 v13 v27 v41 v17 v31 v45 p n j
  unfold Cert.Fusion.fusion Cert.Fusion.mix
  rw [← hT]
  refine congrArg (· + v88 (ix1 q)) (Finset.sum_congr rfl fun c _ => ?_)
  exact congrArg (· * v84 (ix2 c q)) (mixedV_apply _ _ _ v55 v59 p c)

end Cert.Fusion.Body

end
-- ==== Proof.BlockReads.lean ====
/-
  The windows of the one kernel launch, read through their blocks.

  The grid has 25 points. At point t the four row windows (the three current arrays and the reciprocal-count column)
  and the output window sit at row block t — rows 2000 t … 2000 t + 1999 of their arrays — and the seven weight
  windows hold their whole arrays. Every statement is over an arbitrary array, so it can be used for whatever the
  arrays hold when the launch begins.
-/
import proofs.«130495_j88278757802661_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.Fusion.Blocks

open Cert.KernelIdeal Cert.KernelIdeal.Gen

theorem hz2 : (![0, 0] : Fin 2 → Nat) = fun _ => 0 := funext fun a => by fin_cases a <;> rfl
theorem hz1 : (![0] : Fin 1 → Nat) = fun _ => 0 := funext fun a => by fin_cases a <;> rfl

/-- The printed index maps of the row windows and of the output, decided over the 25 grid points: block (t, 0). -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_11.index t (0 : Fin 2) = t.val ∧ win0_11.index t (1 : Fin 2) = 0) :=
  (by decide +kernel : ∀ t : Fin grid0.N, _)

/-- The weight windows never move: block zero at every point. -/
theorem idx_const : ∀ t : Fin cfg0.N,
    win0_4.index t = ![0, 0, 0] ∧ win0_5.index t = ![0, 0] ∧ win0_6.index t = ![0, 0] ∧ win0_7.index t = ![0, 0]
    ∧ win0_8.index t = ![0] ∧ win0_9.index t = ![0, 0] ∧ win0_10.index t = ![0] :=
  (by decide +kernel : ∀ t : Fin grid0.N, _)

/-- The grid has 25 points. -/
theorem lt25 (t : Fin cfg0.N) : t.val < 25 := t.isLt

/-- Row p of window 0's block at point t is row 2000 t + p of its array. -/
theorem rd0 (A : S50000x128.Idx → EReal) (t : Fin cfg0.N) (p : Fin 2000) (l : Fin 128) (r : Fin 50000)
    (hr : r.val = 2000 * t.val + p.val) :
    ((cfg0.win 0).blk t).view.read (Elt Ideal) A (ix2 p l) = A (ix2 r l) := by
  have e0 := (idx_rows t).1.1
  have e1 := (idx_rows t).1.2
  rw [View.read_apply]
  show A _ = A _
  refine congrArg A (funext fun a => Fin.ext ?_)
  match a with
  | ⟨0, _⟩ => show win0_0.index t (0 : Fin 2) * 2000 + 1 * p.val = r.val; rw [e0, hr]; omega
  | ⟨1, _⟩ => show win0_0.index t (1 : Fin 2) * 128 + 1 * l.val = l.val; rw [e1]; omega

/-- Row p of window 1's block at point t is row 2000 t + p of its array. -/
theorem rd1 (A : S50000x128.Idx → EReal) (t : Fin cfg0.N) (p : Fin 2000) (l : Fin 128) (r : Fin 50000)
    (hr : r.val = 2000 * t.val + p.val) :
    ((cfg0.win 1).blk t).view.read (Elt Ideal) A (ix2 p l) = A (ix2 r l) := by
  have e0 := (idx_rows t).2.1.1
  have e1 := (idx_rows t).2.1.2
  rw [View.read_apply]
  show A _ = A _
  refine congrArg A (funext fun a => Fin.ext ?_)
  match a with
  | ⟨0, _⟩ => show win0_1.index t (0 : Fin 2) * 2000 + 1 * p.val = r.val; rw [e0, hr]; omega
  | ⟨1, _⟩ => show win0_1.index t (1 : Fin 2) * 128 + 1 * l.val = l.val; rw [e1]; omega

/-- Row p of window 2's block at point t is row 2000 t + p of its array. -/
theorem rd2 (A : S50000x128.Idx → EReal) (t : Fin cfg0.N) (p : Fin 2000) (l : Fin 128) (r : Fin 50000)
    (hr : r.val = 2000 * t.val + p.val) :
    ((cfg0.win 2).blk t).view.read (Elt Ideal) A (ix2 p l) = A (ix2 r l) := by
  have e0 := (idx_rows t).2.2.1.1
  have e1 := (idx_rows t).2.2.1.2
  rw [View.read_apply]
  show A _ = A _
  refine congrArg A (funext fun a => Fin.ext ?_)
  match a with
  | ⟨0, _⟩ => show win0_2.index t (0 : Fin 2) * 2000 + 1 * p.val = r.val; rw [e0, hr]; omega
  | ⟨1, _⟩ => show win0_2.index t (1 : Fin 2) * 128 + 1 * l.val = l.val; rw [e1]; omega

/-- Row p of the reciprocal-count column's block at point t is row 2000 t + p of the column. -/
theorem rd3 (A : S50000x1.Idx → EReal) (t : Fin cfg0.N) (p : Fin 2000) (r : Fin 50000) (hr : r.val = 2000 * t.val + p.val) :
    ((cfg0.win 3).blk t).view.read (Elt Ideal) A (ix2 p (0 : Fin 1)) = A (ix2 r (0 : Fin 1)) := by
  have e0 := (idx_rows t).2.2.2.1.1
  have e1 := (idx_rows t).2.2.2.1.2
  rw [View.read_apply]
  show A _ = A _
  refine congrArg A (funext fun a => Fin.ext ?_)
  match a with
  | ⟨0, _⟩ => show win0_3.index t (0 : Fin 2) * 2000 + 1 * p.val = r.val; rw [e0, hr]; omega
  | ⟨1, _⟩ => show win0_3.index t (1 : Fin 2) * 1 + 1 * 0 = 0; rw [e1]

theorem rd4 (A : S3x128x128.Idx → EReal) (t : Fin cfg0.N) : ((cfg0.win 4).blk t).view.read (Elt Ideal) A = A := by
  have e := (idx_const t).1
  funext x
  rw [View.read_apply]
  show A _ = A _
  refine congrArg A (funext fun a => Fin.ext ?_)
  match a with
  | ⟨0, _⟩ => show win0_4.index t (0 : Fin 3) * 3 + 1 * (x 0).val = (x 0).val; rw [e]; show 0 * 3 + 1 * (x 0).val = _; omega
  | ⟨1, _⟩ => show win0_4.index t (1 : Fin 3) * 128 + 1 * (x 1).val = (x 1).val; rw [e]; show 0 * 128 + 1 * (x 1).val = _; omega
  | ⟨2, _⟩ => show win0_4.index t (2 : Fin 3) * 128 + 1 * (x 2).val = (x 2).val; rw [e]; show 0 * 128 + 1 * (x 2).val = _; omega

theorem rd5 (A : S3x128.Idx → EReal) (t : Fin cfg0.N) : ((cfg0.win 5).blk t).view.read (Elt Ideal) A = A := by
  have e := (idx_const t).2.1
  funext x
  rw [View.read_apply]
  show A _ = A _
  refine congrArg A (funext fun a => Fin.ext ?_)
  match a with
  | ⟨0, _⟩ => show win0_5.index t (0 : Fin 2) * 3 + 1 * (x 0).val = (x 0).val; rw [e]; show 0 * 3 + 1 * (x 0).val = _; omega
  | ⟨1, _⟩ => show win0_5.index t (1 : Fin 2) * 128 + 1 * (x 1).val = (x 1).val; rw [e]; show 0 * 128 + 1 * (x 1).val = _; omega

theorem rd6 (A : S1x3.Idx → EReal) (t : Fin cfg0.N) : ((cfg0.win 6).blk t).view.read (Elt Ideal) A = A := by
  have e := (idx_const t).2.2.1
  funext x
  rw [View.read_apply]
  show A _ = A _
  refine congrArg A (funext fun a => Fin.ext ?_)
  match a with
  | ⟨0, _⟩ => show win0_6.index t (0 : Fin 2) * 1 + 1 * (x 0).val = (x 0).val; rw [e]; show 0 * 1 + 1 * (x 0).val = _; omega
  | ⟨1, _⟩ => show win0_6.index t (1 : Fin 2) * 3 + 1 * (x 1).val = (x 1).val; rw [e]; show 0 * 3 + 1 * (x 1).val = _; omega

theorem rd7 (A : S384x3.Idx → EReal) (t : Fin cfg0.N) : ((cfg0.win 7).blk t).view.read (Elt Ideal) A = A := by
  have e := (idx_const t).2.2.2.1
  funext x
  rw [View.read_apply]
  show A _ = A _
  refine congrArg A (funext fun a => Fin.ext ?_)
  match a with
  | ⟨0, _⟩ => show win0_7.index t (0 : Fin 2) * 384 + 1 * (x 0).val = (x 0).val; rw [e]; show 0 * 384 + 1 * (x 0).val = _; omega
  | ⟨1, _⟩ => show win0_7.index t (1 : Fin 2) * 3 + 1 * (x 1).val = (x 1).val; rw [e]; show 0 * 3 + 1 * (x 1).val = _; omega

theorem rd8 (A : S3.Idx → EReal) (t : Fin cfg0.N) : ((cfg0.win 8).blk t).view.read (Elt Ideal) A = A := by
  have e := (idx_const t).2.2.2.2.1
  funext x
  rw [View.read_apply]
  show A _ = A _
  refine congrArg A (funext fun a => Fin.ext ?_)
  match a with
  | ⟨0, _⟩ => show win0_8.index t (0 : Fin 1) * 3 + 1 * (x 0).val = (x 0).val; rw [e]; show 0 * 3 + 1 * (x 0).val = _; omega

theorem rd9 (A : S384x128.Idx → EReal) (t : Fin cfg0.N) : ((cfg0.win 9).blk t).view.read (Elt Ideal) A = A := by
  have e := (idx_const t).2.2.2.2.2.1
  funext x
  rw [View.read_apply]
  show A _ = A _
  refine congrArg A (funext fun a => Fin.ext ?_)
  match a with
  | ⟨0, _⟩ => show win0_9.index t (0 : Fin 2) * 384 + 1 * (x 0).val = (x 0).val; rw [e]; show 0 * 384 + 1 * (x 0).val = _; omega
  | ⟨1, _⟩ => show win0_9.index t (1 : Fin 2) * 128 + 1 * (x 1).val = (x 1).val; rw [e]; show 0 * 128 + 1 * (x 1).val = _; omega

theorem rd10 (A : S128.Idx → EReal) (t : Fin cfg0.N) : ((cfg0.win 10).blk t).view.read (Elt Ideal) A = A := by
  have e := (idx_const t).2.2.2.2.2.2
  funext x
  rw [View.read_apply]
  show A _ = A _
  refine congrArg A (funext fun a => Fin.ext ?_)
  match a with
  | ⟨0, _⟩ => show win0_10.index t (0 : Fin 1) * 128 + 1 * (x 0).val = (x 0).val; rw [e]; show 0 * 128 + 1 * (x 0).val = _; omega

/-- Where the output window's block at point t lands in the output array: row 2000 t + p, column q. -/
theorem emb11 (t : Fin cfg0.N) (p : Fin 2000) (q : Fin 128) :
    ((((cfg0.win 11).blk t).view.emb (ix2 p q)) 0).val = 2000 * t.val + p.val
    ∧ (((cfg0.win 11).blk t).view.emb (ix2 p q)) 1 = q := by
  have e0 := (idx_rows t).2.2.2.2.1
  have e1 := (idx_rows t).2.2.2.2.2
  refine ⟨?_, Fin.ext ?_⟩
  · show win0_11.index t (0 : Fin 2) * 2000 + 1 * p.val = _; rw [e0]; omega
  · show win0_11.index t (1 : Fin 2) * 128 + 1 * q.val = q.val; rw [e1]; omega

/-- A block B is block t of an array A when they agree entry by entry at the block's place. -/
theorem cut_eq_read11 (B : S2000x128.Idx → EReal) (A : S50000x128.Idx → EReal) (t : Fin cfg0.N)
    (h : ∀ (p : Fin 2000) (q : Fin 128), B (ix2 p q) = A (((cfg0.win 11).blk t).view.emb (ix2 p q))) :
    (cfg0.win 11).cut (grid0.coords t) B = ((cfg0.win 11).blk t).view.read (Elt Ideal) A := by
  funext y
  obtain ⟨p, q, rfl⟩ : ∃ (p : Fin 2000) (q : Fin 128), y = ix2 p q := ⟨y 0, y 1, eq_ix2 y⟩
  rw [View.read_apply]
  exact h p q

/-- Every index of the output array lies in the block of the point its row belongs to. -/
theorem covered11 (i : S50000x128.Idx) : ∃ t : Fin cfg0.N, (cfg0.win 11).flush t = true ∧ i ∈ ((cfg0.win 11).blk t).view.set := by
  have hi0 : (i 0).val < 50000 := (i 0).isLt
  have hi1 : (i 1).val < 128 := (i 1).isLt
  let t : Fin cfg0.N := ⟨(i 0).val / 2000, by show (i 0).val / 2000 < 25; omega⟩
  have e0 := (idx_rows t).2.2.2.2.1
  have e1 := (idx_rows t).2.2.2.2.2
  have ht : t.val = (i 0).val / 2000 := rfl
  refine ⟨t, flush0_11 t, ?_⟩
  show i ∈ ((View.whole main_v54).slice (win0_11.rect t)).set
  rw [View.set_slice_whole, Rect.mem_set_unit]
  intro a
  match a with
  | ⟨0, _⟩ => show win0_11.index t (0 : Fin 2) * 2000 ≤ (i 0).val ∧ (i 0).val < win0_11.index t (0 : Fin 2) * 2000 + 2000; rw [e0, ht]; omega
  | ⟨1, _⟩ => show win0_11.index t (1 : Fin 2) * 128 ≤ (i 1).val ∧ (i 1).val < win0_11.index t (1 : Fin 2) * 128 + 128; rw [e1]; omega

end Cert.Fusion.Blocks

end
-- ==== Proof.KernelValue.lean ====
/-
  What the kernel's one launch leaves in its output array.

  Each grid point t computes, from row block t of the three current arrays and of the reciprocal-count column and
  from the whole weight arrays, the fusion layer's rows 2000 t … 2000 t + 1999, and writes them back as row block t
  of the output. The 25 blocks cover the output array, so after the run the output array is the layer of the arrays
  as the launch found them, index by index.
-/
import proofs.«130495_j88278757802661_2_alg».proof.Proof.Gen.KernelIdeal.Value
import proofs.«130495_j88278757802661_2_alg».proof.Proof.Spec
import proofs.«130495_j88278757802661_2_alg».proof.Proof.Payload
import proofs.«130495_j88278757802661_2_alg».proof.Proof.BlockReads
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.Fusion.Kernel

open Cert.KernelIdeal Cert.KernelIdeal.Gen Cert.KernelIdeal.Value Cert.Fusion.Blocks

/-- The three current arrays from what the launch is given: the node features, the first mean, and the raw second
    sum times the reciprocal count of its row (the product the body forms itself). -/
def cur3 {n : ℕ} (a b s : (⟨2, ![n, 128]⟩ : Shape).Idx → EReal) (ic : (⟨2, ![n, 1]⟩ : Shape).Idx → EReal) :
    Fin 3 → (⟨2, ![n, 128]⟩ : Shape).Idx → EReal :=
  ![a, b, fun i => s i * ic (ix2 (i 0) (0 : Fin 1))]

/-- What the body leaves in the output block, at row p and column q of the block, from the eleven input blocks. -/
theorem out_at (x0 x1 x2 : Vec Ideal S2000x128 .f32) (x3 : Vec Ideal S2000x1 .f32) (x4 : Vec Ideal S3x128x128 .f32)
    (x5 : Vec Ideal S3x128 .f32) (x6 : Vec Ideal S1x3 .f32) (x7 : Vec Ideal S384x3 .f32) (x8 : Vec Ideal S3 .f32)
    (x9 : Vec Ideal S384x128 .f32) (x10 : Vec Ideal S128 .f32) (p : Fin 2000) (q : Fin 128) :
    out0_11 (F := Ideal) x0 x1 x2 x3 x4 x5 x6 x7 x8 x9 x10 (ix2 p q)
      = Cert.Fusion.fusion (fun n l => cur3 (n := 2000) x0 x1 x2 x3 n (ix2 p l))
          (fun n l j => x4 (ix3 n l j)) (fun n j => x5 (ix2 n j))
          (fun n => x6 (ix2 (0 : Fin 1) n)) (fun c a => x7 (ix2 c a)) (fun a => x8 (ix1 a))
          (fun c q => x9 (ix2 c q)) (fun q => x10 (ix1 q)) q := by
  unfold out0_11
  rw [View.canon_unit_zero hz2]
  simp only [View.ld_unit_zero (S := S2000x128) hz2, View.ld_unit_zero (S := S2000x1) hz2, View.ld_unit_zero (S := S1x3) hz2,
    View.ld_unit_zero (S := S384x3) hz2, View.ld_unit_zero (S := S3) hz1, View.ld_unit_zero (S := S384x128) hz2,
    View.ld_unit_zero (S := S128) hz1]
  refine (Cert.Fusion.Body.payload_at _ _ _ _ _ _ _ _ _ _ _ _ _ _ _ p q).trans ?_
  have eW : (fun (n : Fin 3) (l j : Fin 128) => (![View.ld x4 r0_3, View.ld x4 r0_5, View.ld x4 r0_7] : Fin 3 → S1x128x128.Idx → EReal) n (ix3 (0 : Fin 1) l j))
      = fun n l j => x4 (ix3 n l j) := by
    funext n l j
    match n with
    | ⟨0, _⟩ =>
      show x4 (r0_3.idx (ix3 (0 : Fin 1) l j)) = x4 (ix3 (0 : Fin 3) l j)
      refine congrArg x4 (funext fun a => Fin.ext ?_)
      match a with
      | ⟨0, _⟩ => rfl
      | ⟨1, _⟩ => show 0 + 1 * l.val = l.val; omega
      | ⟨2, _⟩ => show 0 + 1 * j.val = j.val; omega
    | ⟨1, _⟩ =>
      show x4 (r0_5.idx (ix3 (0 : Fin 1) l j)) = x4 (ix3 (1 : Fin 3) l j)
      refine congrArg x4 (funext fun a => Fin.ext ?_)
      match a with
      | ⟨0, _⟩ => rfl
      | ⟨1, _⟩ => show 0 + 1 * l.val = l.val; omega
      | ⟨2, _⟩ => show 0 + 1 * j.val = j.val; omega
    | ⟨2, _⟩ =>
      show x4 (r0_7.idx (ix3 (0 : Fin 1) l j)) = x4 (ix3 (2 : Fin 3) l j)
      refine congrArg x4 (funext fun a => Fin.ext ?_)
      match a with
      | ⟨0, _⟩ => rfl
      | ⟨1, _⟩ => show 0 + 1 * l.val = l.val; omega
      | ⟨2, _⟩ => show 0 + 1 * j.val = j.val; omega
  have eB : (fun (n : Fin 3) (j : Fin 128) => (![View.ld x5 r0_4, View.ld x5 r0_6, View.ld x5 r0_8] : Fin 3 → S1x128.Idx → EReal) n (ix2 (0 : Fin 1) j))
      = fun n j => x5 (ix2 n j) := by
    funext n j
    match n with
    | ⟨0, _⟩ =>
      show x5 (r0_4.idx (ix2 (0 : Fin 1) j)) = x5 (ix2 (0 : Fin 3) j)
      refine congrArg x5 (funext fun a => Fin.ext ?_)
      match a with
      | ⟨0, _⟩ => rfl
      | ⟨1, _⟩ => show 0 + 1 * j.val = j.val; omega
    | ⟨1, _⟩ =>
      show x5 (r0_6.idx (ix2 (0 : Fin 1) j)) = x5 (ix2 (1 : Fin 3) j)
      refine congrArg x5 (funext fun a => Fin.ext ?_)
      match a with
      | ⟨0, _⟩ => rfl
      | ⟨1, _⟩ => show 0 + 1 * j.val = j.val; omega
    | ⟨2, _⟩ =>
      show x5 (r0_8.idx (ix2 (0 : Fin 1) j)) = x5 (ix2 (2 : Fin 3) j)
      refine congrArg x5 (funext fun a => Fin.ext ?_)
      match a with
      | ⟨0, _⟩ => rfl
      | ⟨1, _⟩ => show 0 + 1 * j.val = j.val; omega
  rw [eW, eB]
  rfl

variable (m : (ℓ : Loc nD τ sig) → Buf (Elt Ideal) ℓ) (ρ : Dev nD → PrngReg)

/-- The layer of eleven given arrays: the output array the kernel ends with, as a function of what its windows hold. -/
def layer (a0 a1 a2 : S50000x128.Idx → EReal) (a3 : S50000x1.Idx → EReal) (a4 : S3x128x128.Idx → EReal)
    (a5 : S3x128.Idx → EReal) (a6 : S1x3.Idx → EReal) (a7 : S384x3.Idx → EReal) (a8 : S3.Idx → EReal)
    (a9 : S384x128.Idx → EReal) (a10 : S128.Idx → EReal) : S50000x128.Idx → EReal :=
  Cert.Fusion.G (cur3 (n := 50000) a0 a1 a2 a3) a4 a5 a6 a7 a8 a9 a10

/-- The body's block from blocks of given arrays is the layer's block: generic in the arrays. -/
theorem block_eq (a0 a1 a2 : S50000x128.Idx → EReal) (a3 : S50000x1.Idx → EReal) (a4 : S3x128x128.Idx → EReal)
    (a5 : S3x128.Idx → EReal) (a6 : S1x3.Idx → EReal) (a7 : S384x3.Idx → EReal) (a8 : S3.Idx → EReal)
    (a9 : S384x128.Idx → EReal) (a10 : S128.Idx → EReal) (t : Fin cfg0.N) :
    (cfg0.win 11).cut (grid0.coords t)
        (out0_11 (F := Ideal) (((cfg0.win 0).blk t).view.read (Elt Ideal) a0) (((cfg0.win 1).blk t).view.read (Elt Ideal) a1)
          (((cfg0.win 2).blk t).view.read (Elt Ideal) a2) (((cfg0.win 3).blk t).view.read (Elt Ideal) a3)
          (((cfg0.win 4).blk t).view.read (Elt Ideal) a4) (((cfg0.win 5).blk t).view.read (Elt Ideal) a5)
          (((cfg0.win 6).blk t).view.read (Elt Ideal) a6) (((cfg0.win 7).blk t).view.read (Elt Ideal) a7)
          (((cfg0.win 8).blk t).view.read (Elt Ideal) a8) (((cfg0.win 9).blk t).view.read (Elt Ideal) a9)
          (((cfg0.win 10).blk t).view.read (Elt Ideal) a10))
      = ((cfg0.win 11).blk t).view.read (Elt Ideal) (layer a0 a1 a2 a3 a4 a5 a6 a7 a8 a9 a10) := by
  refine cut_eq_read11 _ _ t fun p q => ?_
  obtain ⟨hr, hq⟩ := emb11 t p q
  refine (out_at _ _ _ _ _ _ _ _ _ _ _ p q).trans ?_
  unfold layer Cert.Fusion.G
  rw [hq, rd4, rd5, rd6, rd7, rd8, rd9, rd10]
  refine congrArg (fun X => Cert.Fusion.fusion X _ _ _ _ _ _ _ q) (funext fun n => funext fun l => ?_)
  match n with
  | ⟨0, _⟩ => exact rd0 a0 t p l _ hr
  | ⟨1, _⟩ => exact rd1 a1 t p l _ hr
  | ⟨2, _⟩ =>
    exact congrArg₂ (fun (u v : EReal) => u * v) (rd2 a2 t p l _ hr) (rd3 a3 t p _ hr)

/-- The output array the kernel ends with: the layer of the arrays as the launch finds them. -/
def outK (c : Dev nD) : S50000x128.Idx → EReal :=
  layer (V m c main_arg0) (V m c main_v43) (V m c main_v53) (V m c main_v31) (V m c main_arg3) (V m c main_arg4)
    (V m c main_v19) (V m c main_arg9) (V m c main_arg10) (V m c main_arg11) (V m c main_arg12)

/-- What point t writes back is block t of that array. -/
theorem flushed_eq (c : Dev nD) (t : Fin cfg0.N) :
    (dats m 0 c).flushed 11 t = ((cfg0.win 11).blk t).view.read (Elt Ideal) (outK m c) := by
  rw [flushed11]
  exact block_eq (V m c main_arg0) (V m c main_v43) (V m c main_v53) (V m c main_v31) (V m c main_arg3) (V m c main_arg4)
    (V m c main_v19) (V m c main_arg9) (V m c main_arg10) (V m c main_arg11) (V m c main_arg12) t

/-- The 25 blocks cover the output array, so it ends holding the layer. -/
theorem final (c : Dev nD) : (dats m 0 c).arrAt 11 cfg0.N = outK m c :=
  (dats m 0 c).arrAt_eq_of_cover 11 (outK m c) (fun t _ => flushed_eq m c t) covered11

/-- The kernel's run, read: the result array at the layer of the arrays the launch finds, the arguments unchanged. -/
theorem run : θ_run defs (onTc (τ := τ) (main (F := Ideal))) ⟨m, fun _ => 0, ρ⟩ fun r => ∀ c : Dev nD,
      r.2.mem ((c : Thread nD τ).loc main_v54) = outK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (Cert.KernelIdeal.Value.run_blocks m ρ)

end Cert.Fusion.Kernel

end
-- ==== Proof.RefSide.lean ====
/-
  The reference computes the fusion layer of the specification.

  The reference lays the work out array by array: each hop's 128×128 weight matrix and bias row are cut out of their
  stacks and the hop's gate out of the gate row; each hop's array is the current array times the matrix, plus the bias
  row, times the gate; the three arrays are laid side by side into a 50000×384 array; the scores are that array times
  the score matrix plus the score bias; a row's weights are the exponentials of its scores less their largest, divided
  by their sum; each hop's array is scaled by its column of weights, the three are laid side by side again, and the
  output is that array times the last matrix plus the last bias.

  Read at a row r, each of these is the corresponding function of the specification on row r of the three current
  arrays: a cut, a change of view or a spreading only renames the index, a product is the sum over the shared index,
  and the maximum and the sum over a row of three are the fold and the sum over the three hops. The first part proves
  these readings for arbitrary arrays; the second chains them along the reference's stages.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal
import Idealize.ShloMosaic.PureOps.Ideal.Laws
import Idealize.ShloMosaic.PureOps.Reduce
import proofs.«130495_j88278757802661_2_alg».proof.Proof.RefReadP
import proofs.«130495_j88278757802661_2_alg».proof.Proof.Spec
import proofs.«130495_j88278757802661_2_alg».proof.Proof.LibPlainDot

noncomputable section

open scoped BigOperators

namespace Cert.Fusion.Ref

open Idealize.ShloMosaic Idealize.ShloMosaic.ValueIdx

section Layout
variable {α : Type}

/-- One 128×128 weight matrix cut out of the stack of three and viewed as a matrix: entry (l, j) of the cut at
    offset n is entry (n, l, j) of the stack. -/
theorem sliceW_apply (x3 : (⟨3, ![3, 128, 128]⟩ : Shape).Idx → α) (off : Fin 3 → Nat) (n : Fin 3)
    (h0 : off 0 = n.val) (h1 : off 1 = 0) (h2 : off 2 = 0)
    (hs : (⟨3, ![3, 128, 128]⟩ : Shape).Slices off ⟨3, ![1, 128, 128]⟩)
    (hc : (⟨3, ![1, 128, 128]⟩ : Shape).ShapeCasts ⟨2, ![128, 128]⟩) (l j : Fin 128) :
    shapeCast ⟨2, ![128, 128]⟩ (extractStridedSlice ⟨3, ![1, 128, 128]⟩ off x3 hs) hc (ix2 l j) = x3 (ix3 n l j) := by
  rw [shapeCast_apply _ hc (ix2 l j) (ix3 (0 : Fin 1) l j) (by
    rw [Shape.rowMajor_val_three, Shape.rowMajor_val_two]
    show (0 * 128 + l.val) * 128 + j.val = l.val * 128 + j.val
    omega)]
  exact extractStridedSlice_apply off x3 hs _ (ix3 n l j) (fun a => match a with
    | ⟨0, _⟩ => by show n.val = off 0 + 0; omega
    | ⟨1, _⟩ => by show l.val = off 1 + l.val; omega
    | ⟨2, _⟩ => by show j.val = off 2 + j.val; omega)

/-- A length-N vector laid along the columns of an M×N array: entry (r, q) is the vector's entry q. -/
theorem bias_apply {M N : ℕ} (b : (⟨1, ![N]⟩ : Shape).Idx → α)
    (hb1 : (⟨1, ![N]⟩ : Shape).BroadcastsInDim ⟨2, ![1, N]⟩ ![1])
    (hb2 : (⟨2, ![1, N]⟩ : Shape).BroadcastsInDim ⟨2, ![M, N]⟩ ![0, 1]) (r : Fin M) (q : Fin N) :
    broadcastInDim ⟨2, ![M, N]⟩ ![0, 1] hb2 (broadcastInDim ⟨2, ![1, N]⟩ ![1] hb1 b) (ix2 r q) = b (ix1 q) := by
  rw [broadcastInDim_apply _ hb2 _ (ix2 r q) (ix2 (0 : Fin 1) q) (fun a => match a with
    | ⟨0, _⟩ => by show 0 = if (1 : Nat) = 1 then 0 else r.val; rw [if_pos rfl]
    | ⟨1, _⟩ => by
        show q.val = if N = 1 then 0 else q.val
        split
        · have := q.isLt; omega
        · rfl)]
  exact broadcastInDim_apply _ hb1 b _ (ix1 q) (fun a => match a with
    | ⟨0, _⟩ => by
        show q.val = if N = 1 then 0 else q.val
        split
        · have := q.isLt; omega
        · rfl)

/-- One row cut out of the 3×128 bias table, viewed as a vector and laid along the columns of a 50000×128 array. -/
theorem sliceB_apply (x4 : (⟨2, ![3, 128]⟩ : Shape).Idx → α) (off : Fin 2 → Nat) (n : Fin 3)
    (h0 : off 0 = n.val) (h1 : off 1 = 0)
    (hs : (⟨2, ![3, 128]⟩ : Shape).Slices off ⟨2, ![1, 128]⟩)
    (hc : (⟨2, ![1, 128]⟩ : Shape).ShapeCasts ⟨1, ![128]⟩)
    (hb1 : (⟨1, ![128]⟩ : Shape).BroadcastsInDim ⟨2, ![1, 128]⟩ ![1])
    (hb2 : (⟨2, ![1, 128]⟩ : Shape).BroadcastsInDim ⟨2, ![50000, 128]⟩ ![0, 1]) (r : Fin 50000) (j : Fin 128) :
    broadcastInDim ⟨2, ![50000, 128]⟩ ![0, 1] hb2 (broadcastInDim ⟨2, ![1, 128]⟩ ![1] hb1
      (shapeCast ⟨1, ![128]⟩ (extractStridedSlice ⟨2, ![1, 128]⟩ off x4 hs) hc)) (ix2 r j) = x4 (ix2 n j) := by
  rw [bias_apply]
  rw [shapeCast_apply _ hc (ix1 j) (ix2 (0 : Fin 1) j) (by
    rw [Shape.rowMajor_val_two, Shape.rowMajor_val_one]
    show 0 * 128 + j.val = j.val
    omega)]
  exact extractStridedSlice_apply off x4 hs _ (ix2 n j) (fun a => match a with
    | ⟨0, _⟩ => by show n.val = off 0 + 0; omega
    | ⟨1, _⟩ => by show j.val = off 1 + j.val; omega)

/-- One entry cut out of the 1×3 gate row, viewed as a scalar and spread over a whole array. -/
theorem gate_apply {T : Shape} (g : (⟨2, ![1, 3]⟩ : Shape).Idx → α) (off : Fin 2 → Nat) (n : Fin 3)
    (h0 : off 0 = 0) (h1 : off 1 = n.val)
    (hs : (⟨2, ![1, 3]⟩ : Shape).Slices off ⟨2, ![1, 1]⟩)
    (hc : (⟨2, ![1, 1]⟩ : Shape).ShapeCasts ⟨0, ![]⟩)
    (hb : (⟨0, ![]⟩ : Shape).BroadcastsInDim T ![]) (i : T.Idx) :
    broadcastInDim T ![] hb (shapeCast ⟨0, ![]⟩ (extractStridedSlice ⟨2, ![1, 1]⟩ off g hs) hc) i
      = g (ix2 (0 : Fin 1) n) := by
  rw [broadcastInDim_scalar_apply]
  rw [shapeCast_apply _ hc ix0 (ix2 (0 : Fin 1) (0 : Fin 1)) (by
    have h1 := ((⟨2, ![1, 1]⟩ : Shape).rowMajor (ix2 (0 : Fin 1) (0 : Fin 1))).isLt
    have h2 := ((⟨0, ![]⟩ : Shape).rowMajor ix0).isLt
    have e1 : (⟨2, ![1, 1]⟩ : Shape).numel = 1 := by decide
    have e2 : (⟨0, ![]⟩ : Shape).numel = 1 := by decide
    have h1' : ((⟨2, ![1, 1]⟩ : Shape).rowMajor (ix2 (0 : Fin 1) (0 : Fin 1))).val < 1 := lt_of_lt_of_eq h1 e1
    have h2' : ((⟨0, ![]⟩ : Shape).rowMajor ix0).val < 1 := lt_of_lt_of_eq h2 e2
    omega)]
  exact extractStridedSlice_apply off g hs _ (ix2 (0 : Fin 1) n) (fun a => match a with
    | ⟨0, _⟩ => by show 0 = off 0 + 0; omega
    | ⟨1, _⟩ => by show n.val = off 1 + 0; omega)

/-- A length-M vector stood up as a column and spread over N columns: entry (r, a) is the vector's entry r. -/
theorem col_apply {M N : ℕ} (v : (⟨1, ![M]⟩ : Shape).Idx → α)
    (hb1 : (⟨1, ![M]⟩ : Shape).BroadcastsInDim ⟨2, ![M, 1]⟩ ![0])
    (hb2 : (⟨2, ![M, 1]⟩ : Shape).BroadcastsInDim ⟨2, ![M, N]⟩ ![0, 1]) (r : Fin M) (a : Fin N) :
    broadcastInDim ⟨2, ![M, N]⟩ ![0, 1] hb2 (broadcastInDim ⟨2, ![M, 1]⟩ ![0] hb1 v) (ix2 r a) = v (ix1 r) := by
  rw [broadcastInDim_apply _ hb2 _ (ix2 r a) (ix2 r (0 : Fin 1)) (fun b => match b with
    | ⟨0, _⟩ => by
        show r.val = if M = 1 then 0 else r.val
        split
        · have := r.isLt; omega
        · rfl
    | ⟨1, _⟩ => by show 0 = if (1 : Nat) = 1 then 0 else a.val; rw [if_pos rfl])]
  exact broadcastInDim_apply _ hb1 v _ (ix1 r) (fun b => match b with
    | ⟨0, _⟩ => by
        show r.val = if M = 1 then 0 else r.val
        split
        · have := r.isLt; omega
        · rfl)

/-- Column n of an M×3 array cut out and spread over K columns: entry (r, j) is the array's entry (r, n). -/
theorem wcol_apply {M K : ℕ} (w : (⟨2, ![M, 3]⟩ : Shape).Idx → α) (off : Fin 2 → Nat) (n : Fin 3)
    (h0 : off 0 = 0) (h1 : off 1 = n.val)
    (hs : (⟨2, ![M, 3]⟩ : Shape).Slices off ⟨2, ![M, 1]⟩)
    (hb : (⟨2, ![M, 1]⟩ : Shape).BroadcastsInDim ⟨2, ![M, K]⟩ ![0, 1]) (r : Fin M) (j : Fin K) :
    broadcastInDim ⟨2, ![M, K]⟩ ![0, 1] hb (extractStridedSlice ⟨2, ![M, 1]⟩ off w hs) (ix2 r j) = w (ix2 r n) := by
  rw [broadcastInDim_apply _ hb _ (ix2 r j) (ix2 r (0 : Fin 1)) (fun b => match b with
    | ⟨0, _⟩ => by
        show r.val = if M = 1 then 0 else r.val
        split
        · have := r.isLt; omega
        · rfl
    | ⟨1, _⟩ => by show 0 = if (1 : Nat) = 1 then 0 else j.val; rw [if_pos rfl])]
  exact extractStridedSlice_apply off w hs _ (ix2 r n) (fun a => match a with
    | ⟨0, _⟩ => by show r.val = off 0 + r.val; omega
    | ⟨1, _⟩ => by show n.val = off 1 + 0; omega)

end Layout

/-- Three 50000×128 arrays laid side by side: column c of the 50000×384 result comes from piece c / 128, at its
    column c % 128. -/
theorem concat3_apply {α : Type} (a b c : (⟨2, ![50000, 128]⟩ : Shape).Idx → α)
    (h : Shape.Concatenates (([⟨⟨2, ![50000, 128]⟩, a⟩, ⟨⟨2, ![50000, 128]⟩, b⟩, ⟨⟨2, ![50000, 128]⟩, c⟩] :
      List ((s : Shape) × (s.Idx → α))).map (·.1)) ⟨2, ![50000, 384]⟩ 1)
    (r : Fin 50000) (cc : Fin 384) :
    concatenate ⟨2, ![50000, 384]⟩ 1 [⟨⟨2, ![50000, 128]⟩, a⟩, ⟨⟨2, ![50000, 128]⟩, b⟩, ⟨⟨2, ![50000, 128]⟩, c⟩] h (ix2 r cc)
      = (![a, b, c] : Fin 3 → (⟨2, ![50000, 128]⟩ : Shape).Idx → α) (hopOf cc) (ix2 r (posOf cc)) := by
  have key : ∀ (xs : List ((s : Shape) × (s.Idx → α)))
      (e : xs = List.ofFn fun n : Fin 3 => (⟨⟨2, ![50000, 128]⟩, (![a, b, c] : Fin 3 → (⟨2, ![50000, 128]⟩ : Shape).Idx → α) n⟩ : (s : Shape) × (s.Idx → α)))
      (h : Shape.Concatenates (xs.map (·.1)) ⟨2, ![50000, 384]⟩ 1),
      concatenate ⟨2, ![50000, 384]⟩ 1 xs h (ix2 r cc)
        = (![a, b, c] : Fin 3 → (⟨2, ![50000, 128]⟩ : Shape).Idx → α) (hopOf cc) (ix2 r (posOf cc)) := by
    intro xs e h
    subst e
    exact concatenate_ofFn_apply (t := ⟨2, ![50000, 384]⟩) (s₁ := ⟨2, ![50000, 128]⟩) (1 : Fin 2) (![a, b, c] : Fin 3 → (⟨2, ![50000, 128]⟩ : Shape).Idx → α) h rfl 128 rfl (ix2 r cc) (hopOf cc) rfl (ix2 r (posOf cc)) rfl
      (fun b hb => match b with
        | ⟨0, _⟩ => rfl
        | ⟨1, _⟩ => absurd rfl hb)
  exact key _ rfl h

/-- Three arrays laid side by side, read along a row whose three pieces are known: position c holds entry c % 128 of
    piece c / 128. -/
theorem concat3_rows {α : Type} (a b c : (⟨2, ![50000, 128]⟩ : Shape).Idx → α)
    (h : Shape.Concatenates (([⟨⟨2, ![50000, 128]⟩, a⟩, ⟨⟨2, ![50000, 128]⟩, b⟩, ⟨⟨2, ![50000, 128]⟩, c⟩] :
      List ((s : Shape) × (s.Idx → α))).map (·.1)) ⟨2, ![50000, 384]⟩ 1)
    (r : Fin 50000) (t : Fin 3 → Fin 128 → α) (ha : ∀ j : Fin 128, a (ix2 r j) = t 0 j)
    (hb : ∀ j : Fin 128, b (ix2 r j) = t 1 j) (hc : ∀ j : Fin 128, c (ix2 r j) = t 2 j) (cc : Fin 384) :
    concatenate ⟨2, ![50000, 384]⟩ 1 [⟨⟨2, ![50000, 128]⟩, a⟩, ⟨⟨2, ![50000, 128]⟩, b⟩, ⟨⟨2, ![50000, 128]⟩, c⟩] h (ix2 r cc)
      = t (hopOf cc) (posOf cc) := by
  refine (concat3_apply a b c h r cc).trans ?_
  generalize hopOf cc = n
  generalize posOf cc = j
  match n with
  | ⟨0, _⟩ => exact ha j
  | ⟨1, _⟩ => exact hb j
  | ⟨2, _⟩ => exact hc j

/-- A hop's array times its column of weights, read along a row where both are known. -/
theorem scaled_apply (H : FVec Ideal ⟨2, ![50000, 128]⟩ .f32) (A : FVec Ideal ⟨2, ![50000, 3]⟩ .f32) (off : Fin 2 → Nat) (n : Fin 3)
    (h0 : off 0 = 0) (h1 : off 1 = n.val)
    (hs : (⟨2, ![50000, 3]⟩ : Shape).Slices off ⟨2, ![50000, 1]⟩)
    (hb : (⟨2, ![50000, 1]⟩ : Shape).BroadcastsInDim ⟨2, ![50000, 128]⟩ ![0, 1]) (r : Fin 50000)
    (tn : Fin 128 → EReal) (an : EReal) (hH : ∀ j : Fin 128, H (ix2 r j) = tn j) (hA : A (ix2 r n) = an) (j : Fin 128) :
    mulf H (broadcastInDim ⟨2, ![50000, 128]⟩ ![0, 1] hb (extractStridedSlice ⟨2, ![50000, 1]⟩ off A hs)) (ix2 r j) = tn j * an := by
  rw [mulf_apply, hH, wcol_apply A off n h0 h1, hA]

/-- A plain product plus an array, read at (r, q). -/
theorem affine_apply {M K N : ℕ} (d : DotDims ⟨2, ![M, K]⟩ ⟨2, ![K, N]⟩ ⟨2, ![M, N]⟩) (hd : d = DotDims.plain M K N)
    (L : FVec Ideal ⟨2, ![M, K]⟩ .f32) (W : FVec Ideal ⟨2, ![K, N]⟩ .f32) (B : FVec Ideal ⟨2, ![M, N]⟩ .f32)
    (r : Fin M) (q : Fin N) :
    addf (Host.dotGeneral d none L W) B (ix2 r q) = (∑ l : Fin K, L (ix2 r l) * W (ix2 l q)) + B (ix2 r q) := by
  subst hd
  rw [addf_apply]
  exact congrArg (· + B (ix2 r q)) (Cert.LibPlainDot.dotGeneral_apply none .single L W r q)

/-- One hop's array: the current array times the hop's weight matrix, plus the hop's bias row, times the hop's gate;
    row r of it is the hop's row of the specification on row r of the current array. -/
theorem hop_apply (d : DotDims ⟨2, ![50000, 128]⟩ ⟨2, ![128, 128]⟩ ⟨2, ![50000, 128]⟩) (hd : d = DotDims.plain 50000 128 128)
    (c : FVec Ideal ⟨2, ![50000, 128]⟩ .f32) (x3 : FVec Ideal ⟨3, ![3, 128, 128]⟩ .f32) (x4 : FVec Ideal ⟨2, ![3, 128]⟩ .f32)
    (g : FVec Ideal ⟨2, ![1, 3]⟩ .f32) (o3 : Fin 3 → Nat) (o4 og : Fin 2 → Nat) (n : Fin 3)
    (e30 : o3 0 = n.val) (e31 : o3 1 = 0) (e32 : o3 2 = 0) (e40 : o4 0 = n.val) (e41 : o4 1 = 0)
    (eg0 : og 0 = 0) (eg1 : og 1 = n.val)
    (hs3 : (⟨3, ![3, 128, 128]⟩ : Shape).Slices o3 ⟨3, ![1, 128, 128]⟩)
    (hc3 : (⟨3, ![1, 128, 128]⟩ : Shape).ShapeCasts ⟨2, ![128, 128]⟩)
    (hs4 : (⟨2, ![3, 128]⟩ : Shape).Slices o4 ⟨2, ![1, 128]⟩)
    (hc4 : (⟨2, ![1, 128]⟩ : Shape).ShapeCasts ⟨1, ![128]⟩)
    (hb1 : (⟨1, ![128]⟩ : Shape).BroadcastsInDim ⟨2, ![1, 128]⟩ ![1])
    (hb2 : (⟨2, ![1, 128]⟩ : Shape).BroadcastsInDim ⟨2, ![50000, 128]⟩ ![0, 1])
    (hsg : (⟨2, ![1, 3]⟩ : Shape).Slices og ⟨2, ![1, 1]⟩)
    (hcg : (⟨2, ![1, 1]⟩ : Shape).ShapeCasts ⟨0, ![]⟩)
    (hbg : (⟨0, ![]⟩ : Shape).BroadcastsInDim ⟨2, ![50000, 128]⟩ ![]) (r : Fin 50000) (j : Fin 128) :
    mulf (addf (Host.dotGeneral d none c (shapeCast ⟨2, ![128, 128]⟩ (extractStridedSlice ⟨3, ![1, 128, 128]⟩ o3 x3 hs3) hc3))
        (broadcastInDim ⟨2, ![50000, 128]⟩ ![0, 1] hb2 (broadcastInDim ⟨2, ![1, 128]⟩ ![1] hb1
          (shapeCast ⟨1, ![128]⟩ (extractStridedSlice ⟨2, ![1, 128]⟩ o4 x4 hs4) hc4))))
      (broadcastInDim ⟨2, ![50000, 128]⟩ ![] hbg (shapeCast ⟨0, ![]⟩ (extractStridedSlice ⟨2, ![1, 1]⟩ og g hsg) hcg)) (ix2 r j)
      = hopRow (fun l => c (ix2 r l)) (fun l j => x3 (ix3 n l j)) (fun j => x4 (ix2 n j)) (g (ix2 (0 : Fin 1) n)) j := by
  rw [mulf_apply, affine_apply d hd, sliceB_apply x4 o4 n e40 e41, gate_apply g og n eg0 eg1]
  unfold hopRow
  simp only [sliceW_apply x3 o3 n e30 e31 e32]

/-- The scores: the long row times the score matrix plus the score bias. -/
theorem scores_apply (d : DotDims ⟨2, ![50000, 384]⟩ ⟨2, ![384, 3]⟩ ⟨2, ![50000, 3]⟩) (hd : d = DotDims.plain 50000 384 3)
    (L : FVec Ideal ⟨2, ![50000, 384]⟩ .f32) (x9 : FVec Ideal ⟨2, ![384, 3]⟩ .f32) (x10 : FVec Ideal ⟨1, ![3]⟩ .f32)
    (hb1 : (⟨1, ![3]⟩ : Shape).BroadcastsInDim ⟨2, ![1, 3]⟩ ![1])
    (hb2 : (⟨2, ![1, 3]⟩ : Shape).BroadcastsInDim ⟨2, ![50000, 3]⟩ ![0, 1])
    (t : Fin 3 → Fin 128 → EReal) (r : Fin 50000) (hL : ∀ c : Fin 384, L (ix2 r c) = t (hopOf c) (posOf c)) (a : Fin 3) :
    addf (Host.dotGeneral d none L x9) (broadcastInDim ⟨2, ![50000, 3]⟩ ![0, 1] hb2 (broadcastInDim ⟨2, ![1, 3]⟩ ![1] hb1 x10)) (ix2 r a)
      = scores t (fun c a => x9 (ix2 c a)) (fun a => x10 (ix1 a)) a := by
  rw [affine_apply d hd, bias_apply]
  unfold scores
  simp only [hL]

/-- The largest score of a row: the maximum over the three columns started from the word of minus infinity, and once
    more against that word. -/
theorem top_apply (Z : FVec Ideal ⟨2, ![50000, 3]⟩ .f32)
    (hr' : (⟨2, ![50000, 3]⟩ : Shape).ReducesTo [1] ⟨1, ![50000]⟩) (hu : 0 < (⟨0, ![]⟩ : Shape).numel)
    (hbs : (⟨0, ![]⟩ : Shape).BroadcastsInDim ⟨1, ![50000]⟩ ![]) (r : Fin 50000) :
    maximumf (broadcastInDim ⟨1, ![50000]⟩ ![] hbs (constant (F := Ideal) ⟨0, ![]⟩ .f32 0xFF800000#32))
        (Host.reduce FloatOps.maximumf Z (constant (F := Ideal) ⟨0, ![]⟩ .f32 0xFF800000#32) hr' hu) (ix1 r)
      = top3 (fun b => Z (ix2 r b)) := by
  have h : (⟨2, ![50000, 3]⟩ : Shape).Reduces [1] ⟨1, ![50000]⟩ := by decide
  rw [maximumf_apply, broadcastInDim_scalar_apply, constant_apply,
    Host.reduce_eq_fold_single FloatOps.maximumf Z _ hr' h hu, constant_apply]
  have e : (Z ∘ h.lift (ix1 r)) = fun b : Fin 3 => Z (ix2 r b) :=
    funext fun b => congrArg Z (funext fun a => Fin.ext (by match a with | ⟨0, _⟩ => rfl | ⟨1, _⟩ => rfl))
  rw [e]
  rfl

/-- The sum of a row of three from the zero word. -/
theorem sum_apply (E : FVec Ideal ⟨2, ![50000, 3]⟩ .f32)
    (hr' : (⟨2, ![50000, 3]⟩ : Shape).ReducesTo [1] ⟨1, ![50000]⟩) (hu : 0 < (⟨0, ![]⟩ : Shape).numel) (r : Fin 50000) :
    Host.reduceAdd E (constant (F := Ideal) ⟨0, ![]⟩ .f32 0x00000000#32) hr' hu (ix1 r) = ∑ b : Fin 3, E (ix2 r b) := by
  have h : (⟨2, ![50000, 3]⟩ : Shape).Reduces [1] ⟨1, ![50000]⟩ := by decide
  simp only [Host.reduceAdd, Ideal.hostReduceAdd_def]
  rw [Ideal.hostReduceAdd_single hr' h, constant_apply, Ideal.ofBits_zero_f32, zero_add]
  exact Finset.sum_congr rfl fun b _ => congrArg E (funext fun a => Fin.ext (by match a with | ⟨0, _⟩ => rfl | ⟨1, _⟩ => rfl))

/-- The softmax weights of a row from its scores and its largest score. -/
theorem soft_apply (Z : FVec Ideal ⟨2, ![50000, 3]⟩ .f32) (Mx : FVec Ideal ⟨1, ![50000]⟩ .f32)
    (hr' : (⟨2, ![50000, 3]⟩ : Shape).ReducesTo [1] ⟨1, ![50000]⟩) (hu : 0 < (⟨0, ![]⟩ : Shape).numel)
    (hc1 : (⟨1, ![50000]⟩ : Shape).BroadcastsInDim ⟨2, ![50000, 1]⟩ ![0])
    (hc2 : (⟨2, ![50000, 1]⟩ : Shape).BroadcastsInDim ⟨2, ![50000, 3]⟩ ![0, 1])
    (r : Fin 50000) (hM : Mx (ix1 r) = top3 (fun b => Z (ix2 r b))) (a : Fin 3) :
    Host.divf (Host.exp (subf Z (broadcastInDim ⟨2, ![50000, 3]⟩ ![0, 1] hc2 (broadcastInDim ⟨2, ![50000, 1]⟩ ![0] hc1 Mx))))
        (broadcastInDim ⟨2, ![50000, 3]⟩ ![0, 1] hc2 (broadcastInDim ⟨2, ![50000, 1]⟩ ![0] hc1
          (Host.reduceAdd (Host.exp (subf Z (broadcastInDim ⟨2, ![50000, 3]⟩ ![0, 1] hc2 (broadcastInDim ⟨2, ![50000, 1]⟩ ![0] hc1 Mx))))
            (constant (F := Ideal) ⟨0, ![]⟩ .f32 0x00000000#32) hr' hu))) (ix2 r a)
      = softmax3 (fun b => Z (ix2 r b)) a := by
  have hE : ∀ b : Fin 3, Host.exp (subf Z (broadcastInDim ⟨2, ![50000, 3]⟩ ![0, 1] hc2 (broadcastInDim ⟨2, ![50000, 1]⟩ ![0] hc1 Mx))) (ix2 r b)
      = Ideal.exp (Z (ix2 r b) - top3 (fun b => Z (ix2 r b))) := fun b => by
    show FloatOps.hostUnary .exp (subf Z _ (ix2 r b)) = _
    rw [Ideal.hostUnary_exp_def, subf_apply, col_apply, hM]
  show FloatOps.hostDivf _ _ = _
  rw [Ideal.hostDivf_def, col_apply, sum_apply]
  unfold softmax3
  simp only [hE]

/-- The output row: the weighted long row times the last matrix plus the last bias. -/
theorem out_apply (d : DotDims ⟨2, ![50000, 384]⟩ ⟨2, ![384, 128]⟩ ⟨2, ![50000, 128]⟩) (hd : d = DotDims.plain 50000 384 128)
    (WL : FVec Ideal ⟨2, ![50000, 384]⟩ .f32) (x11 : FVec Ideal ⟨2, ![384, 128]⟩ .f32) (x12 : FVec Ideal ⟨1, ![128]⟩ .f32)
    (hb1 : (⟨1, ![128]⟩ : Shape).BroadcastsInDim ⟨2, ![1, 128]⟩ ![1])
    (hb2 : (⟨2, ![1, 128]⟩ : Shape).BroadcastsInDim ⟨2, ![50000, 128]⟩ ![0, 1])
    (t : Fin 3 → Fin 128 → EReal) (att : Fin 3 → EReal) (r : Fin 50000)
    (hWL : ∀ c : Fin 384, WL (ix2 r c) = t (hopOf c) (posOf c) * att (hopOf c)) (q : Fin 128) :
    addf (Host.dotGeneral d none WL x11) (broadcastInDim ⟨2, ![50000, 128]⟩ ![0, 1] hb2 (broadcastInDim ⟨2, ![1, 128]⟩ ![1] hb1 x12)) (ix2 r q)
      = mix t att (fun c q => x11 (ix2 c q)) (fun q => x12 (ix1 q)) q := by
  rw [affine_apply d hd, bias_apply]
  unfold mix
  simp only [hWL]

/-! ### The reference, row by row -/

section Reference

open Cert.ReferenceIdeal Cert.ReferenceIdeal.ReadP

/-- Row r of the reference's result is the layer of the specification on row r of the three current arrays. The two
    neighbour means and the gate row enter as arbitrary arrays `c1`, `c2`, `g`: nothing here looks inside them. -/
theorem ref_row (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S2x32, .f32⟩ : BufTy).Contents (Elt Ideal)) (x6 : (⟨S32, .f32⟩ : BufTy).Contents (Elt Ideal)) (x7 : (⟨S32x3, .f32⟩ : BufTy).Contents (Elt Ideal)) (x8 : (⟨S3, .f32⟩ : BufTy).Contents (Elt Ideal)) (x9 : (⟨S384x3, .f32⟩ : BufTy).Contents (Elt Ideal)) (x10 : (⟨S3, .f32⟩ : BufTy).Contents (Elt Ideal)) (x11 : (⟨S384x128, .f32⟩ : BufTy).Contents (Elt Ideal)) (x12 : (⟨S128, .f32⟩ : BufTy).Contents (Elt Ideal))
    (c1 c2 : FVec Ideal ⟨2, ![50000, 128]⟩ .f32) (g : FVec Ideal ⟨2, ![1, 3]⟩ .f32)
    (e1 : val_main_v53 (F := Ideal) x0 x1 = c1) (e2 : val_main_v83 (F := Ideal) x0 x1 = c2) (eg : val_main_v19 (F := Ideal) x2 x5 x6 x7 x8 = g) (r : Fin 50000) (q : Fin 128) :
    val_main_v125 (F := Ideal) x0 x1 x2 x3 x4 x5 x6 x7 x8 x9 x10 x11 x12 (ix2 r q)
      = Cert.Fusion.G (![x0, c1, c2] : Fin 3 → (⟨2, ![50000, 128]⟩ : Shape).Idx → EReal) x3 x4 g x9 x10 x11 x12 (ix2 r q) := by
  -- the three hops' rows, the scores and the weights of row r, as the specification names them
  let t : Fin 3 → Fin 128 → EReal := fun n j =>
    hopRow (fun l => (![x0, c1, c2] : Fin 3 → (⟨2, ![50000, 128]⟩ : Shape).Idx → EReal) n (ix2 r l)) (fun l j => x3 (ix3 n l j)) (fun j => x4 (ix2 n j)) (g (ix2 (0 : Fin 1) n)) j
  let z : Fin 3 → EReal := scores t (fun c a => x9 (ix2 c a)) (fun a => x10 (ix1 a))
  let att : Fin 3 → EReal := softmax3 z
  -- each hop's array at row r
  have h0 : ∀ j : Fin 128, val_main_v35 (F := Ideal) x0 x2 x3 x4 x5 x6 x7 x8 (ix2 r j) = t 0 j := fun j => by
    have key : val_main_v35 (F := Ideal) x0 x2 x3 x4 x5 x6 x7 x8 (ix2 r j) = hopRow (fun l => (x0) (ix2 r l)) (fun l j => x3 (ix3 (0 : Fin 3) l j)) (fun j => x4 (ix2 (0 : Fin 3) j)) ((val_main_v19 (F := Ideal) x2 x5 x6 x7 x8) (ix2 (0 : Fin 1) (0 : Fin 3))) j :=
      hop_apply _ rfl x0 x3 x4 (val_main_v19 (F := Ideal) x2 x5 x6 x7 x8) ![0, 0, 0] ![0, 0] ![0, 0] 0 rfl rfl rfl rfl rfl rfl rfl _ _ _ _ _ _ _ _ _ r j
    rw [eg] at key
    exact key
  have h1 : ∀ j : Fin 128, val_main_v65 (F := Ideal) x0 x1 x2 x3 x4 x5 x6 x7 x8 (ix2 r j) = t 1 j := fun j => by
    have key : val_main_v65 (F := Ideal) x0 x1 x2 x3 x4 x5 x6 x7 x8 (ix2 r j) = hopRow (fun l => (val_main_v53 (F := Ideal) x0 x1) (ix2 r l)) (fun l j => x3 (ix3 (1 : Fin 3) l j)) (fun j => x4 (ix2 (1 : Fin 3) j)) ((val_main_v19 (F := Ideal) x2 x5 x6 x7 x8) (ix2 (0 : Fin 1) (1 : Fin 3))) j :=
      hop_apply _ rfl (val_main_v53 (F := Ideal) x0 x1) x3 x4 (val_main_v19 (F := Ideal) x2 x5 x6 x7 x8) ![1, 0, 0] ![1, 0] ![0, 1] 1 rfl rfl rfl rfl rfl rfl rfl _ _ _ _ _ _ _ _ _ r j
    rw [eg, e1] at key
    exact key
  have h2 : ∀ j : Fin 128, val_main_v95 (F := Ideal) x0 x1 x2 x3 x4 x5 x6 x7 x8 (ix2 r j) = t 2 j := fun j => by
    have key : val_main_v95 (F := Ideal) x0 x1 x2 x3 x4 x5 x6 x7 x8 (ix2 r j) = hopRow (fun l => (val_main_v83 (F := Ideal) x0 x1) (ix2 r l)) (fun l j => x3 (ix3 (2 : Fin 3) l j)) (fun j => x4 (ix2 (2 : Fin 3) j)) ((val_main_v19 (F := Ideal) x2 x5 x6 x7 x8) (ix2 (0 : Fin 1) (2 : Fin 3))) j :=
      hop_apply _ rfl (val_main_v83 (F := Ideal) x0 x1) x3 x4 (val_main_v19 (F := Ideal) x2 x5 x6 x7 x8) ![2, 0, 0] ![2, 0] ![0, 2] 2 rfl rfl rfl rfl rfl rfl rfl _ _ _ _ _ _ _ _ _ r j
    rw [eg, e2] at key
    exact key
  -- the long row: position c holds entry c % 128 of hop c / 128
  have hL : ∀ c : Fin 384, val_main_v96 (F := Ideal) x0 x1 x2 x3 x4 x5 x6 x7 x8 (ix2 r c) = t (hopOf c) (posOf c) :=
    concat3_rows (val_main_v35 (F := Ideal) x0 x2 x3 x4 x5 x6 x7 x8) (val_main_v65 (F := Ideal) x0 x1 x2 x3 x4 x5 x6 x7 x8) (val_main_v95 (F := Ideal) x0 x1 x2 x3 x4 x5 x6 x7 x8) _ r t h0 h1 h2
  -- the scores, their largest, the weights
  have hZ : ∀ a : Fin 3, val_main_v100 (F := Ideal) x0 x1 x2 x3 x4 x5 x6 x7 x8 x9 x10 (ix2 r a) = z a := fun a =>
    scores_apply _ rfl _ x9 x10 _ _ t r hL a
  have hM : val_main_v103 (F := Ideal) x0 x1 x2 x3 x4 x5 x6 x7 x8 x9 x10 (ix1 r) = top3 (fun b => val_main_v100 (F := Ideal) x0 x1 x2 x3 x4 x5 x6 x7 x8 x9 x10 (ix2 r b)) :=
    top_apply (val_main_v100 (F := Ideal) x0 x1 x2 x3 x4 x5 x6 x7 x8 x9 x10) _ _ _ r
  have hA : ∀ a : Fin 3, val_main_v111 (F := Ideal) x0 x1 x2 x3 x4 x5 x6 x7 x8 x9 x10 (ix2 r a) = att a := fun a =>
    (soft_apply (val_main_v100 (F := Ideal) x0 x1 x2 x3 x4 x5 x6 x7 x8 x9 x10) (val_main_v103 (F := Ideal) x0 x1 x2 x3 x4 x5 x6 x7 x8 x9 x10) _ _ _ _ r hM a).trans
      (congrArg (fun f => softmax3 f a) (funext hZ))
  -- each hop's array times its weight, and the weighted long row
  have hw0 : ∀ j : Fin 128, val_main_v114 (F := Ideal) x0 x1 x2 x3 x4 x5 x6 x7 x8 x9 x10 (ix2 r j) = t 0 j * att 0 :=
    scaled_apply (val_main_v35 (F := Ideal) x0 x2 x3 x4 x5 x6 x7 x8) (val_main_v111 (F := Ideal) x0 x1 x2 x3 x4 x5 x6 x7 x8 x9 x10) ![0, 0] 0 rfl rfl _ _ r (t 0) (att 0) h0 (hA 0)
  have hw1 : ∀ j : Fin 128, val_main_v117 (F := Ideal) x0 x1 x2 x3 x4 x5 x6 x7 x8 x9 x10 (ix2 r j) = t 1 j * att 1 :=
    scaled_apply (val_main_v65 (F := Ideal) x0 x1 x2 x3 x4 x5 x6 x7 x8) (val_main_v111 (F := Ideal) x0 x1 x2 x3 x4 x5 x6 x7 x8 x9 x10) ![0, 1] 1 rfl rfl _ _ r (t 1) (att 1) h1 (hA 1)
  have hw2 : ∀ j : Fin 128, val_main_v120 (F := Ideal) x0 x1 x2 x3 x4 x5 x6 x7 x8 x9 x10 (ix2 r j) = t 2 j * att 2 :=
    scaled_apply (val_main_v95 (F := Ideal) x0 x1 x2 x3 x4 x5 x6 x7 x8) (val_main_v111 (F := Ideal) x0 x1 x2 x3 x4 x5 x6 x7 x8 x9 x10) ![0, 2] 2 rfl rfl _ _ r (t 2) (att 2) h2 (hA 2)
  have hWL : ∀ c : Fin 384, val_main_v121 (F := Ideal) x0 x1 x2 x3 x4 x5 x6 x7 x8 x9 x10 (ix2 r c) = t (hopOf c) (posOf c) * att (hopOf c) :=
    concat3_rows (val_main_v114 (F := Ideal) x0 x1 x2 x3 x4 x5 x6 x7 x8 x9 x10) (val_main_v117 (F := Ideal) x0 x1 x2 x3 x4 x5 x6 x7 x8 x9 x10) (val_main_v120 (F := Ideal) x0 x1 x2 x3 x4 x5 x6 x7 x8 x9 x10) _ r (fun n j => t n j * att n) hw0 hw1 hw2
  -- the output row
  show val_main_v125 (F := Ideal) x0 x1 x2 x3 x4 x5 x6 x7 x8 x9 x10 x11 x12 (ix2 r q) = mix t att (fun c q => x11 (ix2 c q)) (fun q => x12 (ix1 q)) q
  exact out_apply _ rfl _ x11 x12 _ _ t att r hWL q

/-- The reference computes the layer of the specification on every node. -/
theorem ref_is_G (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S2x32, .f32⟩ : BufTy).Contents (Elt Ideal)) (x6 : (⟨S32, .f32⟩ : BufTy).Contents (Elt Ideal)) (x7 : (⟨S32x3, .f32⟩ : BufTy).Contents (Elt Ideal)) (x8 : (⟨S3, .f32⟩ : BufTy).Contents (Elt Ideal)) (x9 : (⟨S384x3, .f32⟩ : BufTy).Contents (Elt Ideal)) (x10 : (⟨S3, .f32⟩ : BufTy).Contents (Elt Ideal)) (x11 : (⟨S384x128, .f32⟩ : BufTy).Contents (Elt Ideal)) (x12 : (⟨S128, .f32⟩ : BufTy).Contents (Elt Ideal)) :
    val_main_v125 (F := Ideal) x0 x1 x2 x3 x4 x5 x6 x7 x8 x9 x10 x11 x12
      = Cert.Fusion.G ![x0, val_main_v53 (F := Ideal) x0 x1, val_main_v83 (F := Ideal) x0 x1] x3 x4 (val_main_v19 (F := Ideal) x2 x5 x6 x7 x8) x9 x10 x11 x12 := by
  funext i
  obtain ⟨r, q, rfl⟩ : ∃ (r : Fin 50000) (q : Fin 128), i = ix2 r q := ⟨i 0, i 1, eq_ix2 i⟩
  exact ref_row x0 x1 x2 x3 x4 x5 x6 x7 x8 x9 x10 x11 x12 _ _ _ rfl rfl rfl r q

end Reference

end Cert.Fusion.Ref

end
-- ==== Proof.HostSide.lean ====
/-
  What the kernel's launch finds in the arrays its host program computed.

  Before the launch the host program forms, from the edge list e and the node features x: the target column of the
  edges as index array, the source column (negative entries wrapped) as index array, the in-degree column clamped
  below by one, its reciprocal, the scatter-sum over edges of gathered rows, the first mean (that sum times the
  reciprocal column) and the raw second sum (the same scatter-sum of the first mean). Here each is a named term,
  and the launch's arrays are shown to be these terms of the arguments.
-/
import proofs.«130495_j88278757802661_2_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx Idealize.ShloMosaic.StableHlo

namespace Cert.Fusion.Host

open Cert.KernelIdeal Cert.KernelIdeal.Gen

/-- The edges' target nodes, one per row of an [800000, 1] index array. -/
def colB (e : IVec S2x800000 32) : IVec S800000x1 32 :=
  broadcastInDim S800000x1 ![0] bcast_S800000_S800000x1_0
    (shapeCast S800000 (extractStridedSlice S1x800000 ![1, 0] e slices_S2x800000_S1x800000_1_0) shapeCasts_S1x800000_S800000)

/-- The edges' source nodes. -/
def rowV (e : IVec S2x800000 32) : IVec S800000 32 :=
  shapeCast S800000 (extractStridedSlice S1x800000 ![0, 0] e slices_S2x800000_S1x800000_0_0) shapeCasts_S1x800000_S800000

/-- The source nodes with negative entries wrapped by 50000, as an [800000, 1] index array. -/
def rowB (e : IVec S2x800000 32) : IVec S800000x1 32 :=
  broadcastInDim S800000x1 ![0] bcast_S800000_S800000x1_0
    (select (cmpi .slt (rowV e) (broadcastInDim S800000 ![] bcast_S_S800000 (constantI S_ 32 0#32)))
      (addi (rowV e) (broadcastInDim S800000 ![] bcast_S_S800000 (constantI S_ 32 50000#32))) (rowV e))

/-- The column of ones. -/
abbrev onesC : FVec Ideal S50000x1 .f32 := broadcastInDim S50000x1 ![] bcast_S_S50000x1 (constant S_ .f32 0x3F800000#32)

/-- The in-degree column clamped below by one. -/
def clamped (e : IVec S2x800000 32) : FVec Ideal S50000x1 .f32 :=
  maximumf
    (Host.scatterAdd scatter_S50000x1_S800000x1_S800000x1_1_0_0_1
      (broadcastInDim S50000x1 ![] bcast_S_S50000x1 (constant S_ .f32 0x00000000#32)) (colB e)
      (broadcastInDim S800000x1 ![] bcast_S_S800000x1 (constant S_ .f32 0x3F800000#32)))
    onesC

/-- Its reciprocal column. -/
def recip (e : IVec S2x800000 32) : FVec Ideal S50000x1 .f32 := Host.divf onesC (clamped e)

/-- The sum over edges, into each edge's target row, of the source row of x. -/
def edgeSum (x : FVec Ideal S50000x128 .f32) (e : IVec S2x800000 32) : FVec Ideal S50000x128 .f32 :=
  Host.scatterAdd scatter_S50000x128_S800000x1_S800000x128_1_0_0_1
    (broadcastInDim S50000x128 ![] bcast_S_S50000x128 (constant S_ .f32 0x00000000#32)) (colB e)
    (Host.gather gather_S50000x128_S800000x1_S800000x128_1_0_n_n_0_1_1128 x (rowB e))

/-- The first mean as the kernel's host program forms it: the edge sum times the broadcast reciprocal column. -/
def mean1 (x : FVec Ideal S50000x128 .f32) (e : IVec S2x800000 32) : FVec Ideal S50000x128 .f32 :=
  mulf (edgeSum x e) (broadcastInDim S50000x128 ![0, 1] bcast_S50000x1_S50000x128_0_1 (recip e))

variable (m : (ℓ : Loc nD τ sig) → Buf (Elt Ideal) ℓ)

set_option maxRecDepth 65536 in
/-- The launch finds the reciprocal column in its fourth window's array. -/
theorem V31_eq (c : Dev nD) : (V m c main_v31 : FVec Ideal S50000x1 .f32) = recip (m (c, Proc.tc.devRef main_arg1)) := by
  dsimp only [Gen.V]
  simp only [hostOps0, hostOps0_1, hostOps0_2, List.flatten_cons, List.flatten_nil, List.append_nil, List.cons_append, List.nil_append]
  after_results_simp
  rfl

set_option maxRecDepth 65536 in
/-- … the first mean in its second window's array … -/
theorem V43_eq (c : Dev nD) : (V m c main_v43 : FVec Ideal S50000x128 .f32)
    = mean1 (m (c, Proc.tc.devRef main_arg0)) (m (c, Proc.tc.devRef main_arg1)) := by
  dsimp only [Gen.V]
  simp only [hostOps0, hostOps0_1, hostOps0_2, List.flatten_cons, List.flatten_nil, List.append_nil, List.cons_append, List.nil_append]
  after_results_simp
  rfl

set_option maxRecDepth 65536 in
/-- … and the raw second sum, the edge sum of the first mean, in its third window's array. -/
theorem V53_eq (c : Dev nD) : (V m c main_v53 : FVec Ideal S50000x128 .f32)
    = edgeSum (mean1 (m (c, Proc.tc.devRef main_arg0)) (m (c, Proc.tc.devRef main_arg1))) (m (c, Proc.tc.devRef main_arg1)) := by
  dsimp only [Gen.V]
  simp only [hostOps0, hostOps0_1, hostOps0_2, List.flatten_cons, List.flatten_nil, List.append_nil, List.cons_append, List.nil_append]
  after_results_simp
  rfl

end Cert.Fusion.Host

end
-- ==== Proof.MeanLaw.lean ====
/-
  The mean over neighbours, written two ways.

  A sum array s (one row per node) is turned into a mean by the count column c clamped below by one. One program
  divides each row by its clamped count; the other multiplies each row by the reciprocal of the clamped count, formed
  once as a column. On the extended reals the two agree entry by entry with no finiteness assumption, because the
  clamped count max(c, 1) is never zero, so a quotient by it IS the product with its inverse.
-/
import Idealize.ShloMosaic.Lib.Pipeline.Value
import Idealize.ShloMosaic.Lib.ValueIdx
import Idealize.ShloMosaic.Lib.IdealHost
import proofs.«130495_j88278757802661_2_alg».proof.Proof.Spec

noncomputable section

namespace Cert.Fusion.Mean

open Idealize.ShloMosaic Idealize.ShloMosaic.ValueIdx

abbrev Srow : Shape := ⟨2, ![50000, 128]⟩
abbrev Scol : Shape := ⟨2, ![50000, 1]⟩
abbrev Sc : Shape := ⟨0, ![]⟩

/-- The column of ones: the word of 1.0 broadcast down a column. -/
abbrev ones (h0 : Sc.BroadcastsInDim Scol ![]) : Scol.Idx → EReal :=
  broadcastInDim Scol ![] h0 (constant (F := Ideal) Sc .f32 0x3F800000#32)

theorem ones_apply (h0 : Sc.BroadcastsInDim Scol ![]) (k : Scol.Idx) : ones h0 k = 1 := by
  show broadcastInDim Scol ![] h0 (constant (F := Ideal) Sc .f32 0x3F800000#32) k = 1
  rw [broadcastInDim_scalar_apply, constant_apply, Ideal.ofBits_one_f32]

/-- A column broadcast across the 128 features, read at (r, j): the column's entry of row r. -/
theorem bcol_apply (h : Scol.BroadcastsInDim Srow ![0, 1]) (y : Scol.Idx → EReal) (i : Srow.Idx) :
    broadcastInDim Srow ![0, 1] h y i = y (ix2 (i 0) (0 : Fin 1)) :=
  broadcastInDim_apply _ h y i (ix2 (i 0) (0 : Fin 1)) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])

/-- Rows times the broadcast reciprocal column = rows divided by the broadcast clamped count. -/
theorem mul_recip_eq_div (h0 : Sc.BroadcastsInDim Scol ![]) (h : Scol.BroadcastsInDim Srow ![0, 1])
    (A : FVec Ideal Srow .f32) (C : FVec Ideal Scol .f32) :
    mulf A (broadcastInDim Srow ![0, 1] h (Host.divf (ones h0) (maximumf C (ones h0))))
      = Host.divf A (broadcastInDim Srow ![0, 1] h (maximumf C (ones h0))) := by
  funext i
  show A i * broadcastInDim Srow ![0, 1] h (Host.divf (ones h0) (maximumf C (ones h0))) i
      = Ideal.div (A i) (broadcastInDim Srow ![0, 1] h (maximumf C (ones h0)) i)
  rw [bcol_apply, bcol_apply]
  show A i * Ideal.div (ones h0 _) (max (C _) (ones h0 _)) = Ideal.div (A i) (max (C _) (ones h0 _))
  rw [ones_apply]
  exact Cert.Fusion.mul_recip_max_one _ _

/-- The same when the product with the reciprocal column is formed entry by entry (as the kernel's body does). -/
theorem mul_recip_entry_eq_div (h0 : Sc.BroadcastsInDim Scol ![]) (h : Scol.BroadcastsInDim Srow ![0, 1])
    (B : FVec Ideal Srow .f32) (C : FVec Ideal Scol .f32) :
    (fun i : Srow.Idx => B i * (Host.divf (ones h0) (maximumf C (ones h0)) : FVec Ideal Scol .f32) (ix2 (i 0) (0 : Fin 1)))
      = Host.divf B (broadcastInDim Srow ![0, 1] h (maximumf C (ones h0))) := by
  funext i
  show B i * Ideal.div (ones h0 _) (max (C _) (ones h0 _)) = Ideal.div (B i) (broadcastInDim Srow ![0, 1] h (maximumf C (ones h0)) i)
  rw [bcol_apply]
  show B i * Ideal.div (ones h0 _) (max (C _) (ones h0 _)) = Ideal.div (B i) (max (C _) (ones h0 _))
  rw [ones_apply]
  exact Cert.Fusion.mul_recip_max_one _ _

end Cert.Fusion.Mean

end
-- ==== Proof.Bridge.lean ====
/-
  The two programs' arrays are the same arrays.

  The reference forms each mean over in-neighbours as the edge sum divided by the broadcast clamped in-degree; the
  kernel's host program forms the first mean as the edge sum times the broadcast reciprocal of the clamped in-degree,
  and its body forms the second mean as the raw second edge sum times that reciprocal, entry by entry. By the law
  "a quotient by max(c, 1) is the product with its reciprocal" the three current arrays of the two programs coincide;
  the gate row is the same host computation in both. So the array the kernel ends with is the fusion layer of the
  reference's own three current arrays.
-/
import proofs.«130495_j88278757802661_2_alg».proof.Proof.Gen.KernelIdeal.Frame
import proofs.«130495_j88278757802661_2_alg».proof.Proof.HostSide
import proofs.«130495_j88278757802661_2_alg».proof.Proof.MeanLaw
import proofs.«130495_j88278757802661_2_alg».proof.Proof.KernelValue
import proofs.«130495_j88278757802661_2_alg».proof.Proof.RefReadP

noncomputable section

open Idealize.ShloMosaic Idealize.ShloMosaic.TcCoe Idealize.SL.Sem Idealize.ShloMosaic.ValueIdx Idealize.ShloMosaic.StableHlo

namespace Cert.Fusion.Bridge

open Cert.KernelIdeal Cert.KernelIdeal.Gen Cert.Fusion.Host
open Cert.ReferenceIdeal.ReadP (val_main_v19 val_main_v53 val_main_v83)

/-- The reference's first mean: the edge sum of the features divided by the broadcast clamped in-degree. -/
theorem ref_mean1 (x : FVec Ideal S50000x128 .f32) (e : IVec S2x800000 32) :
    val_main_v53 (F := Ideal) x e
      = Host.divf (edgeSum x e) (broadcastInDim S50000x128 ![0, 1] bcast_S50000x1_S50000x128_0_1 (clamped e)) := rfl

/-- The reference's second mean: the edge sum of its first mean divided by the same broadcast column. -/
theorem ref_mean2 (x : FVec Ideal S50000x128 .f32) (e : IVec S2x800000 32) :
    val_main_v83 (F := Ideal) x e
      = Host.divf (edgeSum (val_main_v53 (F := Ideal) x e) e)
          (broadcastInDim S50000x128 ![0, 1] bcast_S50000x1_S50000x128_0_1 (clamped e)) := rfl

/-- The kernel's first mean is the reference's. -/
theorem mean1_eq (x : FVec Ideal S50000x128 .f32) (e : IVec S2x800000 32) : mean1 x e = val_main_v53 (F := Ideal) x e := by
  rw [ref_mean1]
  exact Cert.Fusion.Mean.mul_recip_eq_div bcast_S_S50000x1 bcast_S50000x1_S50000x128_0_1 (edgeSum x e) _

/-- The kernel's second mean — the raw second sum times the reciprocal count of its row — is the reference's. -/
theorem mean2_eq (x : FVec Ideal S50000x128 .f32) (e : IVec S2x800000 32) :
    (fun i : S50000x128.Idx => edgeSum (mean1 x e) e i * recip e (ix2 (i 0) (0 : Fin 1))) = val_main_v83 (F := Ideal) x e := by
  rw [ref_mean2, ← mean1_eq]
  exact Cert.Fusion.Mean.mul_recip_entry_eq_div bcast_S_S50000x1 bcast_S50000x1_S50000x128_0_1 (edgeSum (mean1 x e) e) _

/-- Two one-element vectors laid end to end, as a plain function of the two. -/
def cat2 (a b : FVec Ideal S1 .f32) : FVec Ideal S2 .f32 := concatenate S2 0 [⟨S1, a⟩, ⟨S1, b⟩] concatenates_S1_S1_S2_d0

theorem cat2_eq : (fun (a : (⟨S1, .f32⟩ : BufTy).Contents (Elt Ideal)) (b : (⟨S1, .f32⟩ : BufTy).Contents (Elt Ideal)) =>
    concatenate S2 0 [⟨S1, a⟩, ⟨S1, b⟩] concatenates_S1_S1_S2_d0) = cat2 := rfl

variable (m : (ℓ : Loc nD τ sig) → Buf (Elt Ideal) ℓ)

set_option maxRecDepth 65536 in
/-- The gate row the launch finds is the reference's gate row of the same arguments. -/
theorem V19_eq (c : Dev nD) : (V m c main_v19 : FVec Ideal S1x3 .f32)
    = val_main_v19 (F := Ideal) (m (c, Proc.tc.devRef main_arg2)) (m (c, Proc.tc.devRef main_arg5))
        (m (c, Proc.tc.devRef main_arg6)) (m (c, Proc.tc.devRef main_arg7)) (m (c, Proc.tc.devRef main_arg8)) := by
  dsimp only [Gen.V]
  simp only [hostOps0, hostOps0_1, hostOps0_2, List.flatten_cons, List.flatten_nil, List.append_nil, List.cons_append, List.nil_append]
  simp only [cat2_eq]
  after_results_simp
  rfl

/-- The three current arrays the launch works on are the reference's three. -/
theorem cur_eq (c : Dev nD) :
    Cert.Fusion.Kernel.cur3 (n := 50000) (V m c main_arg0) (V m c main_v43) (V m c main_v53) (V m c main_v31)
      = ![(m (c, Proc.tc.devRef main_arg0) : FVec Ideal S50000x128 .f32),
          val_main_v53 (F := Ideal) (m (c, Proc.tc.devRef main_arg0)) (m (c, Proc.tc.devRef main_arg1)),
          val_main_v83 (F := Ideal) (m (c, Proc.tc.devRef main_arg0)) (m (c, Proc.tc.devRef main_arg1))] := by
  rw [V43_eq, V53_eq, V31_eq, V_main_arg0]
  unfold Cert.Fusion.Kernel.cur3
  rw [mean2_eq, mean1_eq]

/-- So the kernel ends with the fusion layer of the reference's own arrays. -/
theorem outK_eq (c : Dev nD) :
    Cert.Fusion.Kernel.outK m c
      = Cert.Fusion.G ![(m (c, Proc.tc.devRef main_arg0) : FVec Ideal S50000x128 .f32),
          val_main_v53 (F := Ideal) (m (c, Proc.tc.devRef main_arg0)) (m (c, Proc.tc.devRef main_arg1)),
          val_main_v83 (F := Ideal) (m (c, Proc.tc.devRef main_arg0)) (m (c, Proc.tc.devRef main_arg1))]
        (m (c, Proc.tc.devRef main_arg3)) (m (c, Proc.tc.devRef main_arg4))
        (val_main_v19 (F := Ideal) (m (c, Proc.tc.devRef main_arg2)) (m (c, Proc.tc.devRef main_arg5))
          (m (c, Proc.tc.devRef main_arg6)) (m (c, Proc.tc.devRef main_arg7)) (m (c, Proc.tc.devRef main_arg8)))
        (m (c, Proc.tc.devRef main_arg9)) (m (c, Proc.tc.devRef main_arg10)) (m (c, Proc.tc.devRef main_arg11))
        (m (c, Proc.tc.devRef main_arg12)) := by
  unfold Cert.Fusion.Kernel.outK Cert.Fusion.Kernel.layer
  rw [cur_eq, V19_eq, V_main_arg3, V_main_arg4, V_main_arg9, V_main_arg10, V_main_arg11, V_main_arg12]

end Cert.Fusion.Bridge

end
-- ==== Proof.lean ====
/-
  The claim: the fusion-layer kernel against its jnp reference, at the ideal values.

  Both programs compute, for every node, the fusion layer of three "current" feature rows (Proof/Spec.lean): the
  node's features, the mean over its in-neighbours, and the mean of those means. The kernel's one launch covers the
  50000 nodes in 25 row blocks, each block being the layer of the same rows (Proof/Payload.lean for the body's
  arithmetic at an index, Proof/BlockReads.lean and Proof/KernelValue.lean from blocks to the whole array); the
  reference computes the layer on all rows at once (Proof/RefSide.lean). The two differ in how a mean is formed —
  a quotient by the clamped in-degree against a product with its reciprocal — which agree on every extended real
  (Proof/MeanLaw.lean, Proof/HostSide.lean, Proof/Bridge.lean). The three frames are the generated ones; the
  reference's is its run with the result dropped. No finiteness of the inputs is used.
-/
import proofs.«130495_j88278757802661_2_alg».proof.Defs
import proofs.«130495_j88278757802661_2_alg».proof.Proof.Gen.Kernel
import proofs.«130495_j88278757802661_2_alg».proof.Proof.Gen.Kernel.Skeleton
import proofs.«130495_j88278757802661_2_alg».proof.Proof.Gen.Kernel.Launch
import proofs.«130495_j88278757802661_2_alg».proof.Proof.Gen.Kernel.Points
import proofs.«130495_j88278757802661_2_alg».proof.Proof.Gen.Kernel.Frame
import proofs.«130495_j88278757802661_2_alg».proof.Proof.Gen.KernelIdeal
import proofs.«130495_j88278757802661_2_alg».proof.Proof.Gen.KernelIdeal.Skeleton
import proofs.«130495_j88278757802661_2_alg».proof.Proof.Gen.KernelIdeal.Launch
import proofs.«130495_j88278757802661_2_alg».proof.Proof.Gen.KernelIdeal.Points
import proofs.«130495_j88278757802661_2_alg».proof.Proof.Gen.KernelIdeal.Frame
import proofs.«130495_j88278757802661_2_alg».proof.Proof.Gen.ReferenceIdeal
import proofs.«130495_j88278757802661_2_alg».proof.Proof.Gen.Pre_finite_inputs
import proofs.«130495_j88278757802661_2_alg».proof.Proof.Gen.KernelIdeal.Value
import proofs.«130495_j88278757802661_2_alg».proof.Proof.RefRunP
import proofs.«130495_j88278757802661_2_alg».proof.Proof.RefReadP
import proofs.«130495_j88278757802661_2_alg».proof.Proof.KernelValue
import proofs.«130495_j88278757802661_2_alg».proof.Proof.RefSide
import proofs.«130495_j88278757802661_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing: there is nothing to preserve. -/
theorem preserves : Cert.preserves_Kernel_KernelIdeal := trivial

/-- The kernel's result array ends at the fusion layer of the arrays its launch finds, the reference's at the layer
    of its own three current arrays; from arguments that agree these are the same arrays, so the same layer. -/
theorem algebraic : Cert.algebraic_KernelIdeal_ReferenceIdeal := by
  intro m ρ m' ρ' _ hagree
  refine ⟨fun c => Cert.Fusion.Kernel.outK m c, Cert.Fusion.Kernel.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10, a11, a12⟩ := hagree c
  show Cert.ReferenceIdeal.ValueP.res_main_v125 m' c = Cert.Fusion.Kernel.outK m c
  rw [Cert.ReferenceIdeal.ReadP.val_main_v125_eq, Cert.Fusion.Ref.ref_is_G, Cert.Fusion.Bridge.outK_eq,
    a0, a1, a2, a3, a4, a5, a6, a7, a8, a9, a10, a11, a12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
